-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64 : Shape := ⟨2, ![64, 64]⟩
abbrev S1000000x64 : Shape := ⟨2, ![1000000, 64]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_

variable [Facts]

def fn {F : FTy → Type} [FloatOps F] (main_arg0 : FVec F S64x64 .f32) (main_arg1 : FVec F S1000000x64 .f32) : IVec S_ 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  main_v8
-- ==== Kernel.lean ====
abbrev S64x64 : Shape := ⟨2, ![64, 64]⟩
abbrev S1000000x64 : Shape := ⟨2, ![1000000, 64]⟩
abbrev S8000x64 : Shape := ⟨2, ![8000, 64]⟩
abbrev S64x1 : Shape := ⟨2, ![64, 1]⟩
abbrev S64x8000 : Shape := ⟨2, ![64, 8000]⟩
abbrev S64 : Shape := ⟨1, ![64]⟩

abbrev nBuf : Space → Nat
  | .hbm => 3
  | .vmem => 7
  | .smem => 0
  | _ => 0

abbrev bufTy : (tb : Table) → Fin (tcTables nBuf tb) → BufTy
  | .hbm, ⟨0, _⟩ => ⟨S64x64, .f32⟩
  | .hbm, ⟨1, _⟩ => ⟨S1000000x64, .f32⟩
  | .hbm, ⟨2, _⟩ => ⟨S64x64, .f32⟩
  | .local _ .vmem, ⟨0, _⟩ => ⟨S64x64, .f32⟩
  | .local _ .vmem, ⟨1, _⟩ => ⟨S8000x64, .f32⟩
  | .local _ .vmem, ⟨2, _⟩ => ⟨S8000x64, .f32⟩
  | .local _ .vmem, ⟨3, _⟩ => ⟨S64x64, .f32⟩
  | .local _ .vmem, ⟨4, _⟩ => ⟨S64x64, .f32⟩
  | .local _ .vmem, ⟨5, _⟩ => ⟨S64x1, .f32⟩
  | .local _ .vmem, ⟨6, _⟩ => ⟨S64x1, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![125], ![false]⟩

def k0_cond2 (i : grid0.Coords) : BitVec 1 :=
  let arg0 : BitVec 32 := BitVec.ofNat 32 (i 0).val
  let c124_i32 : BitVec 32 := 124#32
  let v36 : BitVec 1 := Scalar.cmpi .eq arg0 c124_i32
  let v37 : BitVec 32 := Scalar.extui v36
  let c0_i32_19 : BitVec 32 := 0#32
  let v38 : BitVec 1 := Scalar.cmpi .ne v37 c0_i32_19
  v38

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S8000x64_S8000x64_0_0 : ∀ a, (![0, 0] : Fin 2 → Nat) a + S8000x64.size a ≤ S8000x64.size a
  h_S8000x64 : 0 < S8000x64.numel
  reduces_S64x8000_S64 : S64x8000.Reduces [1] S64
  shapeCasts_S64_S64x1 : S64.ShapeCasts S64x1
  broadcasts_S64x1_S64x8000 : S64x1.Broadcasts S64x8000
  broadcasts_S64x1_S64x64 : S64x1.Broadcasts S64x64
  bitsLt_bf16_f32 : FTy.bits .bf16 < FTy.bits .f32
  dot_S64x64_S8000x64_S64x8000_1_1_0_0_n_n_wf : DotDims.WF S64x64 S8000x64 S64x8000 [1] [1] [0] [0] [] []
  dot_S64x8000_S8000x64_S64x64_1_0_0_1_n_n_wf : DotDims.WF S64x8000 S8000x64 S64x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x64.size a ≤ S64x64.size a
  hwx0_0 : ∀ i : grid0.Coords, EltTy.bits .f32 = 32 ∨ (Rect.block (s := S64x64) S64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .f32 = 32 ∨ (Rect.block (s := S1000000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)

variable [Facts₀]

def dot_S64x64_S8000x64_S64x8000_1_1_0_0_n_n : DotDims S64x64 S8000x64 S64x8000 where
  lhsContracting := [1]
  rhsContracting := [1]
  lhsNonContracting := [0]
  rhsNonContracting := [0]
  lhsBatch := []
  rhsBatch := []
  wf := dot_S64x64_S8000x64_S64x8000_1_1_0_0_n_n_wf
def dot_S64x8000_S8000x64_S64x64_1_0_0_1_n_n : DotDims S64x8000 S8000x64 S64x64 where
  lhsContracting := [1]
  rhsContracting := [0]
  lhsNonContracting := [0]
  rhsNonContracting := [1]
  lhsBatch := []
  rhsBatch := []
  wf := dot_S64x8000_S8000x64_S64x64_1_0_0_1_n_n_wf

abbrev win0_0 : Pipeline.Window sig grid0 :=
  Pipeline.Window.ofSpec (Memref.whole main_arg0) S64x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x64 : Shape := ⟨2, ![64, 64]⟩
abbrev S1000000x64 : Shape := ⟨2, ![1000000, 64]⟩
abbrev S64x1000000 : Shape := ⟨2, ![64, 1000000]⟩
abbrev S_ : Shape := ⟨0, ![]⟩
abbrev S64 : Shape := ⟨1, ![64]⟩
abbrev S64x1 : Shape := ⟨2, ![64, 1]⟩

abbrev nBuf : Space → Nat
  | .hbm => 22
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S1000000x64, .f32⟩
  | .hbm, ⟨2, _⟩ => ⟨S64x1000000, .f32⟩
  | .hbm, ⟨3, _⟩ => ⟨S64x1000000, .f32⟩
  | .hbm, ⟨4, _⟩ => ⟨S_, .f32⟩
  | .hbm, ⟨5, _⟩ => ⟨S64x1000000, .f32⟩
  | .hbm, ⟨6, _⟩ => ⟨S64x1000000, .f32⟩
  | .hbm, ⟨7, _⟩ => ⟨S_, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64x1, .f32⟩
  | .hbm, ⟨13, _⟩ => ⟨S64x1000000, .f32⟩
  | .hbm, ⟨14, _⟩ => ⟨S64x1000000, .f32⟩
  | .hbm, ⟨15, _⟩ => ⟨S64x1000000, .f32⟩
  | .hbm, ⟨16, _⟩ => ⟨S_, .f32⟩
  | .hbm, ⟨17, _⟩ => ⟨S64, .f32⟩
  | .hbm, ⟨18, _⟩ => ⟨S64x1, .f32⟩
  | .hbm, ⟨19, _⟩ => ⟨S64x1000000, .f32⟩
  | .hbm, ⟨20, _⟩ => ⟨S64x1000000, .f32⟩
  | .hbm, ⟨21, _⟩ => ⟨S64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S1000000x64_S64x1000000_1_0 : S1000000x64.Transposes [1, 0] S64x1000000
  bcast_S_S64x1000000 : S_.BroadcastsInDim S64x1000000 (![] : Fin 0 → Fin S64x1000000.rank)
  reducesTo_S64x1000000_S64_d1 : S64x1000000.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x1000000_0_1 : S64x1.BroadcastsInDim S64x1000000 (![0, 1] : Fin 2 → Fin S64x1000000.rank)
  dot_S64x64_S64x1000000_S64x1000000_1_0_0_1_n_n_wf : DotDims.WF S64x64 S64x1000000 S64x1000000 [1] [0] [0] [1] [] []
  dot_S64x1000000_S1000000x64_S64x64_1_0_0_1_n_n_wf : DotDims.WF S64x1000000 S1000000x64 S64x64 [1] [0] [0] [1] [] []

variable [Facts₀]

def dot_S64x64_S64x1000000_S64x1000000_1_0_0_1_n_n : DotDims S64x64 S64x1000000 S64x1000000 where
  lhsContracting := [1]
  rhsContracting := [0]
  lhsNonContracting := [0]
  rhsNonContracting := [1]
  lhsBatch := []
  rhsBatch := []
  wf := dot_S64x64_S64x1000000_S64x1000000_1_0_0_1_n_n_wf
def dot_S64x1000000_S1000000x64_S64x64_1_0_0_1_n_n : DotDims S64x1000000 S1000000x64 S64x64 where
  lhsContracting := [1]
  rhsContracting := [0]
  lhsNonContracting := [0]
  rhsNonContracting := [1]
  lhsBatch := []
  rhsBatch := []
  wf := dot_S64x1000000_S1000000x64_S64x64_1_0_0_1_n_n_wf

class Facts : Prop extends Facts₀ where

variable [Facts]
-- ==== Proof.Softmax.lean ====
/-
  The streaming softmax over the reals.

  A row of logits `L J = ∑ k, q k * w J k` over a memory of 1000000 rows is consumed in 125 blocks of 8000 rows. A
  running reference level `M` (any real: the running maximum is one choice, and only its being real matters), the
  partial normaliser `∑ exp (L J - M)` and the partial weighted sum `∑ exp (L J - M) * w J d` are carried from block to
  block; moving the level from `M` to `M'` multiplies both partial sums by `exp (M - M')`. After the last block their
  quotient is the softmax-weighted average of the rows, whatever the level — the same number the two-pass form
  `∑ J, (exp (L J - M') / ∑ J', exp (L J' - M')) * w J d` gives at its own level `M'`.
-/
import Idealize.ShloMosaic.PureOps.Ideal
import Idealize.ShloMosaic.Lib.ValueIdx
import Mathlib.Analysis.SpecialFunctions.Exp
import Mathlib.Algebra.BigOperators.Fin

noncomputable section

namespace Cert.Softmax

open Finset

/-- Row `j` of block `s` (8000 rows to a block; past the 125th block the index wraps, and is never read there). -/
def row (s : ℕ) (j : Fin 8000) : Fin 1000000 := ⟨(8000 * s + j.val) % 1000000, Nat.mod_lt _ (by norm_num)⟩

theorem row_val {s : ℕ} (hs : s < 125) (j : Fin 8000) : (row s j).val = 8000 * s + j.val := by
  have := j.isLt
  show (8000 * s + j.val) % 1000000 = _
  omega

variable (q : Fin 64 → Fin 64 → ℝ) (w : Fin 1000000 → Fin 64 → ℝ)

/-- The logit of query `b` against memory row `J`. -/
def logit (b : Fin 64) (J : Fin 1000000) : ℝ := ∑ k : Fin 64, q b k * w J k

/-- The normaliser over the first `n` blocks, at level `M`. -/
def partL (b : Fin 64) (M : ℝ) (n : ℕ) : ℝ :=
  ∑ s ∈ range n, ∑ j : Fin 8000, Real.exp (logit q w b (row s j) - M)

/-- The weighted sum of column `d` over the first `n` blocks, at level `M`. -/
def partA (b d : Fin 64) (M : ℝ) (n : ℕ) : ℝ :=
  ∑ s ∈ range n, ∑ j : Fin 8000, Real.exp (logit q w b (row s j) - M) * w (row s j) d

/-- The softmax-weighted average of column `d` of the memory, for query `b`. -/
def attend (b d : Fin 64) : ℝ :=
  (∑ J : Fin 1000000, Real.exp (logit q w b J) * w J d) / (∑ J : Fin 1000000, Real.exp (logit q w b J))

/-- Moving the level: `exp (x - M) * exp (M - M') = exp (x - M')`. -/
theorem exp_sub_mul_exp_sub (x M M' : ℝ) : Real.exp (x - M) * Real.exp (M - M') = Real.exp (x - M') := by
  rw [← Real.exp_add]
  congr 1
  ring

/-- One more block, with the level moved from `M` to `M'`: the old normaliser is rescaled by `exp (M - M')`. -/
theorem partL_succ (b : Fin 64) (M M' : ℝ) (n : ℕ) :
    partL q w b M n * Real.exp (M - M') + ∑ j : Fin 8000, Real.exp (logit q w b (row n j) - M')
      = partL q w b M' (n + 1) := by
  unfold partL
  rw [Finset.sum_range_succ, Finset.sum_mul]
  congr 1
  refine Finset.sum_congr rfl fun s _ => ?_
  rw [Finset.sum_mul]
  refine Finset.sum_congr rfl fun j _ => ?_
  exact exp_sub_mul_exp_sub _ _ _

/-- The same for the weighted sum. -/
theorem partA_succ (b d : Fin 64) (M M' : ℝ) (n : ℕ) :
    partA q w b d M n * Real.exp (M - M') + ∑ j : Fin 8000, Real.exp (logit q w b (row n j) - M') * w (row n j) d
      = partA q w b d M' (n + 1) := by
  unfold partA
  rw [Finset.sum_range_succ, Finset.sum_mul]
  congr 1
  refine Finset.sum_congr rfl fun s _ => ?_
  rw [Finset.sum_mul]
  refine Finset.sum_congr rfl fun j _ => ?_
  rw [← exp_sub_mul_exp_sub (logit q w b (row s j)) M M']
  ring

/-- The first block alone. -/
theorem partL_one (b : Fin 64) (M' : ℝ) :
    ∑ j : Fin 8000, Real.exp (logit q w b (row 0 j) - M') = partL q w b M' 1 := by
  unfold partL
  rw [Finset.sum_range_one]

theorem partA_one (b d : Fin 64) (M' : ℝ) :
    ∑ j : Fin 8000, Real.exp (logit q w b (row 0 j) - M') * w (row 0 j) d = partA q w b d M' 1 := by
  unfold partA
  rw [Finset.sum_range_one]

/-- The pair (block, row within the block) ↦ row of the memory is a bijection: `(s, j) ↦ 8000 * s + j`, with
inverse `J ↦ (J / 8000, J % 8000)`. -/
def blockEquiv : Fin 125 × Fin 8000 ≃ Fin 1000000 where
  toFun p := row p.1.val p.2
  invFun J := (⟨J.val / 8000, by have := J.isLt; omega⟩, ⟨J.val % 8000, Nat.mod_lt _ (by norm_num)⟩)
  left_inv p := by
    obtain ⟨s, j⟩ := p
    have hs := s.isLt
    have hj := j.isLt
    have hv : (row s.val j).val = 8000 * s.val + j.val := row_val hs j
    refine Prod.ext (Fin.ext ?_) (Fin.ext ?_)
    · show (row s.val j).val / 8000 = s.val
      omega
    · show (row s.val j).val % 8000 = j.val
      omega
  right_inv J := by
    have hJ := J.isLt
    apply Fin.ext
    have hlt : J.val / 8000 < 125 := by omega
    show (row (J.val / 8000) ⟨J.val % 8000, _⟩).val = J.val
    rw [row_val hlt]
    show 8000 * (J.val / 8000) + J.val % 8000 = J.val
    omega

/-- The 125 blocks are the whole memory. -/
theorem sum_blocks (f : Fin 1000000 → ℝ) :
    ∑ s ∈ range 125, ∑ j : Fin 8000, f (row s j) = ∑ J : Fin 1000000, f J := by
  rw [Finset.sum_range (fun s => ∑ j : Fin 8000, f (row s j))]
  rw [← Fintype.sum_prod_type' (fun (s : Fin 125) (j : Fin 8000) => f (row s.val j))]
  exact Fintype.sum_equiv blockEquiv _ _ (fun _ => rfl)

/-- A sum of exponentials over the whole memory is positive. -/
theorem sum_exp_pos (g : Fin 1000000 → ℝ) : 0 < ∑ J : Fin 1000000, Real.exp (g J) :=
  Finset.sum_pos (fun J _ => Real.exp_pos (g J)) ⟨⟨0, by norm_num⟩, Finset.mem_univ _⟩

theorem partL_pos (b : Fin 64) (M : ℝ) : 0 < partL q w b M 125 := by
  unfold partL
  rw [sum_blocks (fun J => Real.exp (logit q w b J - M))]
  exact sum_exp_pos _

theorem total_pos (b : Fin 64) (M' : ℝ) : 0 < ∑ J : Fin 1000000, Real.exp (logit q w b J - M') :=
  sum_exp_pos _

/-- Shifting the level by `M` multiplies the normaliser by `exp (-M)`. -/
theorem sum_exp_shift (b : Fin 64) (M : ℝ) :
    ∑ J : Fin 1000000, Real.exp (logit q w b J - M)
      = (∑ J : Fin 1000000, Real.exp (logit q w b J)) * Real.exp (-M) := by
  rw [Finset.sum_mul]
  refine Finset.sum_congr rfl fun J _ => ?_
  rw [sub_eq_add_neg, Real.exp_add]

/-- Shifting the level by `M` multiplies the weighted sum by `exp (-M)`. -/
theorem sum_exp_mul_shift (b d : Fin 64) (M : ℝ) :
    ∑ J : Fin 1000000, Real.exp (logit q w b J - M) * w J d
      = (∑ J : Fin 1000000, Real.exp (logit q w b J) * w J d) * Real.exp (-M) := by
  rw [Finset.sum_mul]
  refine Finset.sum_congr rfl fun J _ => ?_
  rw [sub_eq_add_neg, Real.exp_add]
  ring

/-- The quotient of the shifted sums does not depend on the level. -/
theorem shifted_quotient (b d : Fin 64) (M : ℝ) :
    (∑ J : Fin 1000000, Real.exp (logit q w b J - M) * w J d) / (∑ J : Fin 1000000, Real.exp (logit q w b J - M))
      = attend q w b d := by
  rw [sum_exp_shift, sum_exp_mul_shift]
  unfold attend
  exact mul_div_mul_right _ _ (Real.exp_pos (-M)).ne'

/-- After the last block the quotient of the two streamed sums is the softmax-weighted average, at any level. -/
theorem stream_eq_attend (b d : Fin 64) (M : ℝ) :
    partA q w b d M 125 / partL q w b M 125 = attend q w b d := by
  unfold partA partL
  rw [sum_blocks (fun J => Real.exp (logit q w b J - M) * w J d),
    sum_blocks (fun J => Real.exp (logit q w b J - M))]
  exact shifted_quotient q w b d M

/-- The two-pass form: normalise the exponentials at level `M'` first, then average the rows. -/
theorem normalized_eq_attend (b d : Fin 64) (M' : ℝ) :
    ∑ J : Fin 1000000, Real.exp (logit q w b J - M') / (∑ J' : Fin 1000000, Real.exp (logit q w b J' - M')) * w J d
      = attend q w b d := by
  rw [← shifted_quotient q w b d M', Finset.sum_div]
  refine Finset.sum_congr rfl fun J _ => ?_
  rw [div_mul_eq_mul_div]

end Cert.Softmax

/-! ## The result as an array of extended reals -/

namespace Cert.Softmax

open Idealize.ShloMosaic Idealize.ShloMosaic.ValueIdx

/-- Every entry is a real number. -/
def Finite {s : Shape} (x : s.Idx → EReal) : Prop := ∀ i, x i ≠ ⊥ ∧ x i ≠ ⊤

theorem Finite.coe {s : Shape} {x : s.Idx → EReal} (h : Finite x) (i : s.Idx) : x i = ((x i).toReal : EReal) :=
  (EReal.coe_toReal (h i).2 (h i).1).symm

/-- The queries and the memory as real matrices. -/
def realQ (x0 : (⟨2, ![64, 64]⟩ : Shape).Idx → EReal) : Fin 64 → Fin 64 → ℝ := fun b k => (x0 (ix2 b k)).toReal
def realW (x1 : (⟨2, ![1000000, 64]⟩ : Shape).Idx → EReal) : Fin 1000000 → Fin 64 → ℝ := fun J k => (x1 (ix2 J k)).toReal

/-- The retrieved rows: entry `(b, d)` is the softmax-weighted average of column `d` of the memory for query `b`. -/
def result (x0 : (⟨2, ![64, 64]⟩ : Shape).Idx → EReal) (x1 : (⟨2, ![1000000, 64]⟩ : Shape).Idx → EReal) :
    (⟨2, ![64, 64]⟩ : Shape).Idx → EReal :=
  fun i => ((attend (realQ x0) (realW x1) (i 0) (i 1) : ℝ) : EReal)

theorem result_ix2 (x0 : (⟨2, ![64, 64]⟩ : Shape).Idx → EReal) (x1 : (⟨2, ![1000000, 64]⟩ : Shape).Idx → EReal) (b d : Fin 64) :
    result x0 x1 (ix2 b d) = ((attend (realQ x0) (realW x1) b d : ℝ) : EReal) := rfl

end Cert.Softmax

end
-- ==== Proof.Finiteness.lean ====
/-
  From the precondition to finiteness.

  The precondition evaluates `all (|x| < +∞)` on each of the two arguments and joins the two answers by `and`; it says the
  result is 1. An `and` that is 1 had both operands 1; an `all`, a reduction by `and` from 1 over every axis, that is 1
  met a 1 at every index; and `|x| < +∞` at an extended real `x`, that is `max x (-x) < ⊤`, says `x < ⊤` and `-x < ⊤`:
  `x` is neither `⊤` nor `⊥`, a real number.
-/
import proofs.«172269_g9818295239233_cont_9to1_m_996_4_alg».proof.Defs
import proofs.«172269_g9818295239233_cont_9to1_m_996_4_alg».proof.Proof.Softmax
import Idealize.ShloMosaic.Lib.ReduceAll

noncomputable section

namespace Cert.FiniteOfPre

open Idealize.ShloMosaic Idealize.ShloMosaic.ValueIdx

/-- The scalar shape has one index. -/
instance : Subsingleton Cert.Pre_finite_inputs.S_.Idx := ⟨fun a b => funext fun d => d.elim0⟩

/-- The pattern `0x7F800000` is `+∞`. -/
theorem ofBits_inf : Ideal.ofBits .f32 0x7F800000#32 = ⊤ := by simp [Ideal.ofBits, Ideal.ieee]

/-- `|x| < +∞` says that `x` is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    x ≠ ⊥ ∧ x ≠ ⊤ := by
  have hlt : max x (-x) < ⊤ := by
    by_contra hn
    have h' : BitVec.ofBool (decide (max x (-x) < Ideal.ofBits .f32 0x7F800000#32)) = 1#1 := h
    rw [ofBits_inf, decide_eq_false hn] at h'
    exact absurd h' (by decide)
  obtain ⟨h1, h2⟩ := max_lt_iff.1 hlt
  refine ⟨fun e => ?_, fun e => ?_⟩
  · rw [e, EReal.neg_bot] at h2; exact lt_irrefl _ h2
  · rw [e] at h1; exact lt_irrefl _ h1

/-- The precondition, decoded: every entry of both arguments is a real number. -/
theorem finite_of_pre [Cert.Pre_finite_inputs.Facts]
    (x0 : (⟨Cert.ReferenceIdeal.S64x64, .f32⟩ : BufTy).Contents (Elt Ideal))
    (x1 : (⟨Cert.ReferenceIdeal.S1000000x64, .f32⟩ : BufTy).Contents (Elt Ideal))
    (h : Cert.Pre_finite_inputs.fn (F := Ideal) x0 x1 = fun _ => 1#1) :
    Cert.Softmax.Finite x0 ∧ Cert.Softmax.Finite x1 := by
  have e := congrFun h ix0
  dsimp only [Cert.Pre_finite_inputs.fn] at e
  obtain ⟨e0, e1⟩ := IntOp.andi_eq_one.1 e
  refine ⟨fun i => ?_, fun i => ?_⟩
  · exact real_of_abs_lt _ (Host.reduce_andi_all _ _ _ _ _ e0 i)
  · exact real_of_abs_lt _ (Host.reduce_andi_all _ _ _ _ _ e1 i)

end Cert.FiniteOfPre

end
-- ==== Proof.RefValue.lean ====
/-
  The reference program's value.

  The reference is the two-pass softmax: the logits `L b J = ∑ k, q b k * w J k`, times the constant 1; their row
  maximum `M b` (a fold of `max` from `-∞` over the 1000000 columns); `exp (L b J - M b)`; the row sum of these;
  their quotient; and the quotient's product with the memory. On inputs whose entries are all real numbers every
  stage is the coercion of a real number — of the maximum only that much is used, not that it is the maximum — so the
  extended reals' operations are the reals' there, and the last stage is
  `∑ J, exp (L b J - M b) / (∑ J', exp (L b J' - M b)) * w J d`, the softmax-weighted average of column `d`.
-/
import proofs.«172269_g9818295239233_cont_9to1_m_996_4_alg».proof.Proof.Gen.ReferenceIdeal.Read
import proofs.«172269_g9818295239233_cont_9to1_m_996_4_alg».proof.Proof.Softmax

noncomputable section

namespace Cert.RefValue

open Cert.ReferenceIdeal Cert.ReferenceIdeal.Gen Cert.ReferenceIdeal.Read
open Idealize.ShloMosaic Idealize.ShloMosaic.ValueIdx

/-! ## Extended reals that are real -/

/-- A finite sum of coerced reals is the coerced sum. -/
theorem coe_sum {ι : Type} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The fold of `max` from `-∞` over a nonempty family of reals is a real. -/
theorem fold_max_coe {ι : Type} (s : Finset ι) (hs : s.Nonempty) (f : ι → ℝ) :
    ∃ r : ℝ, s.fold (FloatOps.maximumf (F := Ideal) (φ := .f32)) (⊥ : EReal) (fun i => ((f i : ℝ) : EReal)) = (r : EReal) := by
  induction hs using Finset.Nonempty.cons_induction with
  | singleton a => exact ⟨f a, by rw [Finset.fold_singleton]; exact max_bot_right _⟩
  | cons a s ha hs ih =>
    obtain ⟨r, hr⟩ := ih
    exact ⟨max (f a) r, by rw [Finset.fold_cons, hr]; exact (EReal.coe_strictMono.monotone.map_max).symm⟩

/-- The pattern `0x3F800000` is 1. -/
theorem ofBits_one : Ideal.ofBits .f32 0x3F800000#32 = 1 := by
  simp [Ideal.ofBits, Ideal.ieee, -EReal.coe_mul]; norm_num

/-- The pattern `0xFF800000` is `-∞`. -/
theorem ofBits_neg_inf : Ideal.ofBits .f32 0xFF800000#32 = ⊥ := by simp [Ideal.ofBits, Ideal.ieee]

section Stages

variable (x0 : (⟨S64x64, .f32⟩ : BufTy).Contents (Elt Ideal)) (x1 : (⟨S1000000x64, .f32⟩ : BufTy).Contents (Elt Ideal))

/-- The logits: entry `(b, J)` of the product of the queries with the transposed memory. -/
theorem v1_eq (h0 : Softmax.Finite x0) (h1 : Softmax.Finite x1) (b : Fin 64) (J : Fin 1000000) :
    val_main_v1 (F := Ideal) x0 x1 (ix2 b J)
      = ((Softmax.logit (Softmax.realQ x0) (Softmax.realW x1) b J : ℝ) : EReal) := by
  rw [val_main_v1_apply]
  have e : ∀ k : Fin 64, x0 (lidx_main_v1 (ix2 b J) k) * val_main_v0 (F := Ideal) x1 (ridx_main_v1 (ix2 b J) k)
      = ((Softmax.realQ x0 b k * Softmax.realW x1 J k : ℝ) : EReal) := fun k => by
    rw [val_main_v0_apply]
    have el : lidx_main_v1 (ix2 b J) k = ix2 b k :=
      funext fun a => Fin.ext (by match a with | ⟨0, _⟩ => rfl | ⟨1, _⟩ => rfl)
    have er : idx_main_v0 (ridx_main_v1 (ix2 b J) k) = ix2 J k :=
      funext fun a => Fin.ext (by match a with | ⟨0, _⟩ => rfl | ⟨1, _⟩ => rfl)
    rw [el, er, EReal.coe_mul]
    exact congrArg₂ (· * ·) (h0.coe _) (h1.coe _)
  refine (Finset.sum_congr rfl fun k _ => e k).trans ?_
  rw [coe_sum]
  rfl

/-- Times the constant 1: the logits still. -/
theorem v3_eq (h0 : Softmax.Finite x0) (h1 : Softmax.Finite x1) (b : Fin 64) (J : Fin 1000000) :
    val_main_v3 (F := Ideal) x0 x1 (ix2 b J)
      = ((Softmax.logit (Softmax.realQ x0) (Softmax.realW x1) b J : ℝ) : EReal) := by
  rw [val_main_v3_apply, val_main_v2_apply, val_main_cst_apply, v1_eq x0 x1 h0 h1]
  show Ideal.ofBits .f32 0x3F800000#32 * _ = _
  rw [ofBits_one, one_mul]

/-- The shape fact of the row reductions, in the form that names the index with a column inserted. -/
theorem reduces_row : S64x1000000.Reduces [1] S64 := by decide

/-- Row `b` with column `J` inserted is the index `(b, J)`. -/
theorem lift_row (b : Fin 64) (J : Fin 1000000) : reduces_row.lift (ix1 b) J = ix2 b J :=
  funext fun a => Fin.ext (by match a with | ⟨0, _⟩ => rfl | ⟨1, _⟩ => rfl)

/-- The row maximum is a real number (which one is not used). -/
theorem v4_real (h0 : Softmax.Finite x0) (h1 : Softmax.Finite x1) (b : Fin 64) :
    ∃ r : ℝ, val_main_v4 (F := Ideal) x0 x1 (ix1 b) = (r : EReal) := by
  unfold val_main_v4
  rw [Host.reduce_eq_fold_single (FloatOps.maximumf (F := Ideal) (φ := .f32)) _ _ reducesTo_S64x1000000_S64_d1 reduces_row h_S_ (ix1 b)]
  have ef : (val_main_v3 (F := Ideal) x0 x1 ∘ reduces_row.lift (ix1 b))
      = fun J : Fin 1000000 => ((Softmax.logit (Softmax.realQ x0) (Softmax.realW x1) b J : ℝ) : EReal) :=
    funext fun J => (congrArg (val_main_v3 (F := Ideal) x0 x1) (lift_row b J)).trans (v3_eq x0 x1 h0 h1 b J)
  have ei : val_main_cst_0 (F := Ideal) (Shape.Idx.first h_S_) = (⊥ : EReal) := ofBits_neg_inf
  rw [ef, ei]
  exact fold_max_coe _ ⟨⟨0, by decide⟩, Finset.mem_univ _⟩ _

/-- The level the reference subtracts from row `b`: its row maximum, as a real number. -/
def level (b : Fin 64) : ℝ := (val_main_v4 (F := Ideal) x0 x1 (ix1 b)).toReal

theorem v4_eq (h0 : Softmax.Finite x0) (h1 : Softmax.Finite x1) (b : Fin 64) :
    val_main_v4 (F := Ideal) x0 x1 (ix1 b) = ((level x0 x1 b : ℝ) : EReal) := by
  obtain ⟨r, hr⟩ := v4_real x0 x1 h0 h1 b
  unfold level
  rw [hr, EReal.toReal_coe]

/-- The maximum with the splat of `-∞` is the row maximum still. -/
theorem v6_eq (h0 : Softmax.Finite x0) (h1 : Softmax.Finite x1) (b : Fin 64) :
    val_main_v6 (F := Ideal) x0 x1 (ix1 b) = ((level x0 x1 b : ℝ) : EReal) := by
  rw [val_main_v6_apply, val_main_v5_apply, val_main_cst_1_apply, v4_eq x0 x1 h0 h1]
  show max (Ideal.ofBits .f32 0xFF800000#32) _ = _
  rw [ofBits_neg_inf]
  exact max_bot_left _

/-- Broadcast along the row. -/
theorem v8_eq (h0 : Softmax.Finite x0) (h1 : Softmax.Finite x1) (b : Fin 64) (J : Fin 1000000) :
    val_main_v8 (F := Ideal) x0 x1 (ix2 b J) = ((level x0 x1 b : ℝ) : EReal) := by
  rw [val_main_v8_apply, val_main_v7_apply]
  have e : idx_main_v7 (idx_main_v8 (ix2 b J)) = ix1 b :=
    funext fun a => Fin.ext (by match a with | ⟨0, _⟩ => rfl)
  rw [e, v6_eq x0 x1 h0 h1]

/-- The exponentials of the logits less the level. -/
theorem v10_eq (h0 : Softmax.Finite x0) (h1 : Softmax.Finite x1) (b : Fin 64) (J : Fin 1000000) :
    val_main_v10 (F := Ideal) x0 x1 (ix2 b J)
      = ((Real.exp (Softmax.logit (Softmax.realQ x0) (Softmax.realW x1) b J - level x0 x1 b) : ℝ) : EReal) := by
  rw [val_main_v10_apply, val_main_v9_apply, v3_eq x0 x1 h0 h1, v8_eq x0 x1 h0 h1]
  rw [Ideal.hostUnary_exp_def, Ideal.subf_def, ← EReal.coe_sub]
  rfl

/-- Their row sum, from the constant 0. -/
theorem v11_eq (h0 : Softmax.Finite x0) (h1 : Softmax.Finite x1) (b : Fin 64) :
    val_main_v11 (F := Ideal) x0 x1 (ix1 b)
      = ((∑ J : Fin 1000000, Real.exp (Softmax.logit (Softmax.realQ x0) (Softmax.realW x1) b J - level x0 x1 b) : ℝ) : EReal) := by
  rw [val_main_v11_apply]
  have e : ∀ J : Fin 1000000, val_main_v10 (F := Ideal) x0 x1 (idx_main_v11 (ix1 b) J)
      = ((Real.exp (Softmax.logit (Softmax.realQ x0) (Softmax.realW x1) b J - level x0 x1 b) : ℝ) : EReal) := fun J => by
    have ei : idx_main_v11 (ix1 b) J = ix2 b J :=
      funext fun a => Fin.ext (by match a with | ⟨0, _⟩ => rfl | ⟨1, _⟩ => rfl)
    rw [ei, v10_eq x0 x1 h0 h1]
  have ez : val_main_cst_2 (F := Ideal) (Shape.Idx.first h_S_) = (0 : EReal) := Ideal.ofBits_zero_f32
  rw [ez, zero_add]
  exact (Finset.sum_congr rfl fun J _ => e J).trans (coe_sum _ _)

/-- Broadcast along the row. -/
theorem v13_eq (h0 : Softmax.Finite x0) (h1 : Softmax.Finite x1) (b : Fin 64) (J : Fin 1000000) :
    val_main_v13 (F := Ideal) x0 x1 (ix2 b J)
      = ((∑ J' : Fin 1000000, Real.exp (Softmax.logit (Softmax.realQ x0) (Softmax.realW x1) b J' - level x0 x1 b) : ℝ) : EReal) := by
  rw [val_main_v13_apply, val_main_v12_apply]
  have e : idx_main_v12 (idx_main_v13 (ix2 b J)) = ix1 b :=
    funext fun a => Fin.ext (by match a with | ⟨0, _⟩ => rfl)
  rw [e, v11_eq x0 x1 h0 h1]

/-- The normalised exponentials: the row sum is positive, so the quotient is the reals'. -/
theorem v14_eq (h0 : Softmax.Finite x0) (h1 : Softmax.Finite x1) (b : Fin 64) (J : Fin 1000000) :
    val_main_v14 (F := Ideal) x0 x1 (ix2 b J)
      = ((Real.exp (Softmax.logit (Softmax.realQ x0) (Softmax.realW x1) b J - level x0 x1 b)
          / (∑ J' : Fin 1000000, Real.exp (Softmax.logit (Softmax.realQ x0) (Softmax.realW x1) b J' - level x0 x1 b)) : ℝ) : EReal) := by
  rw [val_main_v14_apply, v10_eq x0 x1 h0 h1, v13_eq x0 x1 h0 h1]
  show Ideal.div _ _ = _
  rw [Ideal.div_coe (ne_of_gt (Softmax.total_pos (Softmax.realQ x0) (Softmax.realW x1) b (level x0 x1 b))), ← EReal.coe_mul,
    mul_one_div]

/-- THE REFERENCE'S VALUE: on inputs whose entries are all real, the softmax-weighted average of the memory's columns. -/
theorem ref_eq (h0 : Softmax.Finite x0) (h1 : Softmax.Finite x1) :
    val_main_v15 (F := Ideal) x0 x1 = Softmax.result x0 x1 := by
  funext i
  obtain ⟨b, d, rfl⟩ : ∃ (b : Fin 64) (d : Fin 64), i = ix2 b d := ⟨i 0, i 1, eq_ix2 i⟩
  rw [val_main_v15_apply]
  show _ = ((Softmax.attend (Softmax.realQ x0) (Softmax.realW x1) b d : ℝ) : EReal)
  rw [← Softmax.normalized_eq_attend (Softmax.realQ x0) (Softmax.realW x1) b d (level x0 x1 b), ← coe_sum]
  refine Finset.sum_congr rfl fun J _ => ?_
  have el : lidx_main_v15 (ix2 b d) J = ix2 b J :=
    funext fun a => Fin.ext (by match a with | ⟨0, _⟩ => rfl | ⟨1, _⟩ => rfl)
  have er : ridx_main_v15 (ix2 b d) J = ix2 J d :=
    funext fun a => Fin.ext (by match a with | ⟨0, _⟩ => rfl | ⟨1, _⟩ => rfl)
  rw [el, er, v14_eq x0 x1 h0 h1, EReal.coe_mul]
  exact congrArg _ (h1.coe _)

end Stages

end Cert.RefValue

end
-- ==== Proof.Pieces.lean ====
/-
  What one grid point leaves behind, as values. The body keeps three running quantities in scratch memory — the
  weighted sum `acc` (64×64), the running level `m` (64×1) and the normaliser `l` (64×1). At the first point it resets
  them (zero, -∞, zero) and then performs the common update; at every later point it performs the common update on what
  the point before left; at the last point it also stores `acc / l` of the UPDATED quantities into the output block.
  Each stored array is one whole-buffer store, so what a buffer ends holding is that store's payload, with every load
  reading either a whole input block, a whole scratch as the point before left it, or (first point) the reset value
  just stored.
-/
import proofs.«172269_g9818295239233_cont_9to1_m_996_4_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-! ### The first point: reset, then update -/

theorem sout0_A_0_eq (c : Dev nD) (i : grid0.Coords) (a1 : Memref sig .tc .vmem S64x64 .f32) (h1 : a1.IsWhole) (a2 : Memref sig .tc .vmem S8000x64 .f32) (h2 : a2.IsWhole) (a3 : Memref sig .tc .vmem S64x64 .f32) (h3 : a3.IsWhole) (a4 : Memref sig .tc .vmem S64x64 .f32) (h4 : a4.IsWhole) (a5 : Memref sig .tc .vmem S64x1 .f32) (h5 : a5.IsWhole) (a6 : Memref sig .tc .vmem S64x1 .f32) (h6 : a6.IsWhole) (hc0 : cond0_0 i) (hc1 : ¬cond0_1 i)
    (x0 : Vec F S64x64 .f32) (x1 : Vec F S8000x64 .f32) :
    sout0_A_0 c i a1 h1 a2 h2 a3 h3 a4 h4 a5 h5 a6 h6 hc0 hc1 x0 x1 = k0_pay1 (k0_pay12 x0 x1 k0_pay4 k0_pay3) := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  rw [View.canon_cons_unit_zero (S := S64x64) hz]
  simp only [View.readCov_unit_zero (S := S64x64) _ hz, View.readCov_unit_zero (S := S64x1) _ hz, View.readAt_eq_ld, h1.read_unread, h2.read_unread, View.ld_unit_zero (S := S64x64) hz, View.ld_unit_zero (S := S8000x64) hz]

theorem sout0_A_1_eq (c : Dev nD) (i : grid0.Coords) (a1 : Memref sig .tc .vmem S64x64 .f32) (h1 : a1.IsWhole) (a2 : Memref sig .tc .vmem S8000x64 .f32) (h2 : a2.IsWhole) (a3 : Memref sig .tc .vmem S64x64 .f32) (h3 : a3.IsWhole) (a4 : Memref sig .tc .vmem S64x64 .f32) (h4 : a4.IsWhole) (a5 : Memref sig .tc .vmem S64x1 .f32) (h5 : a5.IsWhole) (a6 : Memref sig .tc .vmem S64x1 .f32) (h6 : a6.IsWhole) (hc0 : cond0_0 i) (hc1 : ¬cond0_1 i)
    (x0 : Vec F S64x64 .f32) (x1 : Vec F S8000x64 .f32) :
    sout0_A_1 c i a1 h1 a2 h2 a3 h3 a4 h4 a5 h5 a6 h6 hc0 hc1 x0 x1 = k0_pay10 x0 x1 k0_pay4 := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  rw [View.canon_cons_unit_zero (S := S64x1) hz]
  simp only [View.readCov_unit_zero (S := S64x64) _ hz, View.readCov_unit_zero (S := S64x1) _ hz, View.readAt_eq_ld, h1.read_unread, h2.read_unread, View.ld_unit_zero (S := S64x64) hz, View.ld_unit_zero (S := S8000x64) hz]

theorem sout0_A_2_eq (c : Dev nD) (i : grid0.Coords) (a1 : Memref sig .tc .vmem S64x64 .f32) (h1 : a1.IsWhole) (a2 : Memref sig .tc .vmem S8000x64 .f32) (h2 : a2.IsWhole) (a3 : Memref sig .tc .vmem S64x64 .f32) (h3 : a3.IsWhole) (a4 : Memref sig .tc .vmem S64x64 .f32) (h4 : a4.IsWhole) (a5 : Memref sig .tc .vmem S64x1 .f32) (h5 : a5.IsWhole) (a6 : Memref sig .tc .vmem S64x1 .f32) (h6 : a6.IsWhole) (hc0 : cond0_0 i) (hc1 : ¬cond0_1 i)
    (x0 : Vec F S64x64 .f32) (x1 : Vec F S8000x64 .f32) :
    sout0_A_2 c i a1 h1 a2 h2 a3 h3 a4 h4 a5 h5 a6 h6 hc0 hc1 x0 x1 = k0_pay11 x0 x1 k0_pay4 k0_pay5 := by
  unfold sout0_A_2
  rw [View.read_writes_eq_canon _ _ _ (scover0_A_2 c i a1 h1 a2 h2 a3 h3 a4 h4 a5 h5 a6 h6 hc0 hc1 x0 x1)]
  unfold kernelRun0_A
  dsimp only
  sl_unfold_words
  rw [View.canon_cons_unit_zero (S := S64x1) hz]
  simp only [View.readCov_unit_zero (S := S64x64) _ hz, View.readCov_unit_zero (S := S64x1) _ hz, View.readAt_eq_ld, h1.read_unread, h2.read_unread, View.ld_unit_zero (S := S64x64) hz, View.ld_unit_zero (S := S8000x64) hz]

/-! ### A middle point: update what the point before left -/

theorem sout0_B_0_eq (c : Dev nD) (i : grid0.Coords) (a1 : Memref sig .tc .vmem S64x64 .f32) (h1 : a1.IsWhole) (a2 : Memref sig .tc .vmem S8000x64 .f32) (h2 : a2.IsWhole) (a3 : Memref sig .tc .vmem S64x64 .f32) (h3 : a3.IsWhole) (a4 : Memref sig .tc .vmem S64x64 .f32) (h4 : a4.IsWhole) (a5 : Memref sig .tc .vmem S64x1 .f32) (h5 : a5.IsWhole) (a6 : Memref sig .tc .vmem S64x1 .f32) (h6 : a6.IsWhole) (hc0 : ¬cond0_0 i) (hc1 : ¬cond0_1 i)
    (x0 : Vec F S64x64 .f32) (x1 : Vec F S8000x64 .f32) (xs0 : Vec F S64x64 .f32) (xs1 : Vec F S64x1 .f32) (xs2 : Vec F S64x1 .f32) :
    sout0_B_0 c i a1 h1 a2 h2 a3 h3 a4 h4 a5 h5 a6 h6 hc0 hc1 x0 x1 xs0 xs1 xs2 = k0_pay1 (k0_pay12 x0 x1 xs1 xs0) := by
  unfold sout0_B_0
  rw [View.read_writes_eq_canon _ _ _ (scover0_B_0 c i a1 h1 a2 h2 a3 h3 a4 h4 a5 h5 a6 h6 hc0 hc1 x0 x1 xs0 xs1 xs2)]
  unfold kernelRun0_B
  dsimp only
  sl_unfold_words
  rw [View.canon_unit_zero hz]
  simp only [View.readAt_eq_ld, h1.read_unread, h2.read_unread, h4.read_unread, h5.read_unread, h6.read_unread, View.ld_unit_zero (S := S64x64) hz, View.ld_unit_zero (S := S8000x64) hz, View.ld_unit_zero (S := S64x1) hz]

theorem sout0_B_1_eq (c : Dev nD) (i : grid0.Coords) (a1 : Memref sig .tc .vmem S64x64 .f32) (h1 : a1.IsWhole) (a2 : Memref sig .tc .vmem S8000x64 .f32) (h2 : a2.IsWhole) (a3 : Memref sig .tc .vmem S64x64 .f32) (h3 : a3.IsWhole) (a4 : Memref sig .tc .vmem S64x64 .f32) (h4 : a4.IsWhole) (a5 : Memref sig .tc .vmem S64x1 .f32) (h5 : a5.IsWhole) (a6 : Memref sig .tc .vmem S64x1 .f32) (h6 : a6.IsWhole) (hc0 : ¬cond0_0 i) (hc1 : ¬cond0_1 i)
    (x0 : Vec F S64x64 .f32) (x1 : Vec F S8000x64 .f32) (xs0 : Vec F S64x64 .f32) (xs1 : Vec F S64x1 .f32) (xs2 : Vec F S64x1 .f32) :
    sout0_B_1 c i a1 h1 a2 h2 a3 h3 a4 h4 a5 h5 a6 h6 hc0 hc1 x0 x1 xs0 xs1 xs2 = k0_pay10 x0 x1 xs1 := by
  unfold sout0_B_1
  rw [View.read_writes_eq_canon _ _ _ (scover0_B_1 c i a1 h1 a2 h2 a3 h3 a4 h4 a5 h5 a6 h6 hc0 hc1 x0 x1 xs0 xs1 xs2)]
  unfold kernelRun0_B
  dsimp only
  sl_unfold_words
  rw [View.canon_unit_zero hz]
  simp only [View.readAt_eq_ld, h1.read_unread, h2.read_unread, h4.read_unread, h5.read_unread, h6.read_unread, View.ld_unit_zero (S := S64x64) hz, View.ld_unit_zero (S := S8000x64) hz, View.ld_unit_zero (S := S64x1) hz]

theorem sout0_B_2_eq (c : Dev nD) (i : grid0.Coords) (a1 : Memref sig .tc .vmem S64x64 .f32) (h1 : a1.IsWhole) (a2 : Memref sig .tc .vmem S8000x64 .f32) (h2 : a2.IsWhole) (a3 : Memref sig .tc .vmem S64x64 .f32) (h3 : a3.IsWhole) (a4 : Memref sig .tc .vmem S64x64 .f32) (h4 : a4.IsWhole) (a5 : Memref sig .tc .vmem S64x1 .f32) (h5 : a5.IsWhole) (a6 : Memref sig .tc .vmem S64x1 .f32) (h6 : a6.IsWhole) (hc0 : ¬cond0_0 i) (hc1 : ¬cond0_1 i)
    (x0 : Vec F S64x64 .f32) (x1 : Vec F S8000x64 .f32) (xs0 : Vec F S64x64 .f32) (xs1 : Vec F S64x1 .f32) (xs2 : Vec F S64x1 .f32) :
    sout0_B_2 c i a1 h1 a2 h2 a3 h3 a4 h4 a5 h5 a6 h6 hc0 hc1 x0 x1 xs0 xs1 xs2 = k0_pay11 x0 x1 xs1 xs2 := by
  unfold sout0_B_2
  rw [View.read_writes_eq_canon _ _ _ (scover0_B_2 c i a1 h1 a2 h2 a3 h3 a4 h4 a5 h5 a6 h6 hc0 hc1 x0 x1 xs0 xs1 xs2)]
  unfold kernelRun0_B
  dsimp only
  sl_unfold_words
  rw [View.canon_unit_zero hz]
  simp only [View.readAt_eq_ld, h1.read_unread, h2.read_unread, h4.read_unread, h5.read_unread, h6.read_unread, View.ld_unit_zero (S := S64x64) hz, View.ld_unit_zero (S := S8000x64) hz, View.ld_unit_zero (S := S64x1) hz]

/-! ### The last point: update, then divide into the output block -/

theorem sout0_C_0_eq (c : Dev nD) (i : grid0.Coords) (a1 : Memref sig .tc .vmem S64x64 .f32) (h1 : a1.IsWhole) (a2 : Memref sig .tc .vmem S8000x64 .f32) (h2 : a2.IsWhole) (a3 : Memref sig .tc .vmem S64x64 .f32) (h3 : a3.IsWhole) (a4 : Memref sig .tc .vmem S64x64 .f32) (h4 : a4.IsWhole) (a5 : Memref sig .tc .vmem S64x1 .f32) (h5 : a5.IsWhole) (a6 : Memref sig .tc .vmem S64x1 .f32) (h6 : a6.IsWhole) (hc0 : ¬cond0_0 i) (hc1 : cond0_1 i)
    (x0 : Vec F S64x64 .f32) (x1 : Vec F S8000x64 .f32) (xs0 : Vec F S64x64 .f32) (xs1 : Vec F S64x1 .f32) (xs2 : Vec F S64x1 .f32) :
    sout0_C_0 c i a1 h1 a2 h2 a3 h3 a4 h4 a5 h5 a6 h6 hc0 hc1 x0 x1 xs0 xs1 xs2 = k0_pay1 (k0_pay12 x0 x1 xs1 xs0) := by
  unfold sout0_C_0
  rw [View.read_writes_eq_canon _ _ _ (scover0_C_0 c i a1 h1 a2 h2 a3 h3 a4 h4 a5 h5 a6 h6 hc0 hc1 x0 x1 xs0 xs1 xs2)]
  unfold kernelRun0_C
  dsimp only
  sl_unfold_words
  rw [View.canon_unit_zero hz]
  simp only [View.readAt_eq_ld, h1.read_unread, h2.read_unread, h4.read_unread, h5.read_unread, h6.read_unread, View.ld_unit_zero (S := S64x64) hz, View.ld_unit_zero (S := S8000x64) hz, View.ld_unit_zero (S := S64x1) hz]

theorem sout0_C_1_eq (c : Dev nD) (i : grid0.Coords) (a1 : Memref sig .tc .vmem S64x64 .f32) (h1 : a1.IsWhole) (a2 : Memref sig .tc .vmem S8000x64 .f32) (h2 : a2.IsWhole) (a3 : Memref sig .tc .vmem S64x64 .f32) (h3 : a3.IsWhole) (a4 : Memref sig .tc .vmem S64x64 .f32) (h4 : a4.IsWhole) (a5 : Memref sig .tc .vmem S64x1 .f32) (h5 : a5.IsWhole) (a6 : Memref sig .tc .vmem S64x1 .f32) (h6 : a6.IsWhole) (hc0 : ¬cond0_0 i) (hc1 : cond0_1 i)
    (x0 : Vec F S64x64 .f32) (x1 : Vec F S8000x64 .f32) (xs0 : Vec F S64x64 .f32) (xs1 : Vec F S64x1 .f32) (xs2 : Vec F S64x1 .f32) :
    sout0_C_1 c i a1 h1 a2 h2 a3 h3 a4 h4 a5 h5 a6 h6 hc0 hc1 x0 x1 xs0 xs1 xs2 = k0_pay10 x0 x1 xs1 := by
  unfold sout0_C_1
  rw [View.read_writes_eq_canon _ _ _ (scover0_C_1 c i a1 h1 a2 h2 a3 h3 a4 h4 a5 h5 a6 h6 hc0 hc1 x0 x1 xs0 xs1 xs2)]
  unfold kernelRun0_C
  dsimp only
  sl_unfold_words
  rw [View.canon_unit_zero hz]
  simp only [View.readAt_eq_ld, h1.read_unread, h2.read_unread, h4.read_unread, h5.read_unread, h6.read_unread, View.ld_unit_zero (S := S64x64) hz, View.ld_unit_zero (S := S8000x64) hz, View.ld_unit_zero (S := S64x1) hz]

theorem sout0_C_2_eq (c : Dev nD) (i : grid0.Coords) (a1 : Memref sig .tc .vmem S64x64 .f32) (h1 : a1.IsWhole) (a2 : Memref sig .tc .vmem S8000x64 .f32) (h2 : a2.IsWhole) (a3 : Memref sig .tc .vmem S64x64 .f32) (h3 : a3.IsWhole) (a4 : Memref sig .tc .vmem S64x64 .f32) (h4 : a4.IsWhole) (a5 : Memref sig .tc .vmem S64x1 .f32) (h5 : a5.IsWhole) (a6 : Memref sig .tc .vmem S64x1 .f32) (h6 : a6.IsWhole) (hc0 : ¬cond0_0 i) (hc1 : cond0_1 i)
    (x0 : Vec F S64x64 .f32) (x1 : Vec F S8000x64 .f32) (xs0 : Vec F S64x64 .f32) (xs1 : Vec F S64x1 .f32) (xs2 : Vec F S64x1 .f32) :
    sout0_C_2 c i a1 h1 a2 h2 a3 h3 a4 h4 a5 h5 a6 h6 hc0 hc1 x0 x1 xs0 xs1 xs2 = k0_pay11 x0 x1 xs1 xs2 := by
  unfold sout0_C_2
  rw [View.read_writes_eq_canon _ _ _ (scover0_C_2 c i a1 h1 a2 h2 a3 h3 a4 h4 a5 h5 a6 h6 hc0 hc1 x0 x1 xs0 xs1 xs2)]
  unfold kernelRun0_C
  dsimp only
  sl_unfold_words
  rw [View.canon_unit_zero hz]
  simp only [View.readAt_eq_ld, h1.read_unread, h2.read_unread, h4.read_unread, h5.read_unread, h6.read_unread, View.ld_unit_zero (S := S64x64) hz, View.ld_unit_zero (S := S8000x64) hz, View.ld_unit_zero (S := S64x1) hz]

theorem out0_C_2_eq (c : Dev nD) (i : grid0.Coords) (a1 : Memref sig .tc .vmem S64x64 .f32) (h1 : a1.IsWhole) (a2 : Memref sig .tc .vmem S8000x64 .f32) (h2 : a2.IsWhole) (a3 : Memref sig .tc .vmem S64x64 .f32) (h3 : a3.IsWhole) (a4 : Memref sig .tc .vmem S64x64 .f32) (h4 : a4.IsWhole) (a5 : Memref sig .tc .vmem S64x1 .f32) (h5 : a5.IsWhole) (a6 : Memref sig .tc .vmem S64x1 .f32) (h6 : a6.IsWhole) (hc0 : ¬cond0_0 i) (hc1 : cond0_1 i)
    (x0 : Vec F S64x64 .f32) (x1 : Vec F S8000x64 .f32) (xs0 : Vec F S64x64 .f32) (xs1 : Vec F S64x1 .f32) (xs2 : Vec F S64x1 .f32) :
    out0_C_2 c i a1 h1 a2 h2 a3 h3 a4 h4 a5 h5 a6 h6 hc0 hc1 x0 x1 xs0 xs1 xs2 = k0_pay2 (k0_pay1 (k0_pay12 x0 x1 xs1 xs0)) (k0_pay11 x0 x1 xs1 xs2) := by
  unfold out0_C_2
  rw [View.read_writes_eq_canon _ _ _ (cover0_C_2 c i a1 h1 a2 h2 a3 h3 a4 h4 a5 h5 a6 h6 hc0 hc1 x0 x1 xs0 xs1 xs2)]
  unfold kernelRun0_C
  dsimp only
  sl_unfold_words
  rw [View.canon_unit_zero hz, View.readCov_unit_zero (S := S64x64) _ hz, View.readCov_unit_zero (S := S64x1) _ hz]
  simp only [View.readAt_eq_ld, h1.read_unread, h2.read_unread, h4.read_unread, h5.read_unread, h6.read_unread, View.ld_unit_zero (S := S64x64) hz, View.ld_unit_zero (S := S8000x64) hz, View.ld_unit_zero (S := S64x1) hz]

end Cert.KernelIdeal.Pieces

end
-- ==== Proof.LibColumn.lean ====
/-
  Column vectors read at an index given by coordinates: a vector of length `a` cast to an `[a, 1]` column, and an
  `[a, 1]` column broadcast over `b` columns. (The library's Lib/ValueLayout.lean has the row forms, `[a] → [1, a]` and
  `[1, b] → [a, b]`; these are their transposes, proved the same way from `shapeCast_apply` and `broadcastTo_apply`.)
-/
import Idealize.ShloMosaic.Lib.Pipeline.Value
import Idealize.ShloMosaic.Lib.ValueIdx

namespace ColumnLayout

open Idealize.ShloMosaic Idealize.ShloMosaic.ValueIdx

variable {α : Type}

/-- An `[a]` vector cast to an `[a, 1]` column reads, at `(p, u)`, the vector at `p`, whatever the unit
    coordinate `u`: both indices have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entries of an `[a, 1]` column as a vector of length `a`. -/
def colVec {a : ℕ} (v : (⟨2, ![a, 1]⟩ : Shape).Idx → α) : (⟨1, ![a]⟩ : Shape).Idx → α :=
  fun i => v (ix2 ⟨(i 0).val, (i 0).isLt⟩ (0 : Fin 1))

theorem colVec_ix1 {a : ℕ} (v : (⟨2, ![a, 1]⟩ : Shape).Idx → α) (p : Fin a) : colVec v (ix1 p) = v (ix2 p (0 : Fin 1)) := rfl

/-- The one row of a `[1, b]` array as a vector of length `b`. -/
def rowVec {b : ℕ} (v : (⟨2, ![1, b]⟩ : Shape).Idx → α) : (⟨1, ![b]⟩ : Shape).Idx → α :=
  fun i => v (ix2 (0 : Fin 1) ⟨(i 0).val, (i 0).isLt⟩)

theorem rowVec_ix1 {b : ℕ} (v : (⟨2, ![1, b]⟩ : Shape).Idx → α) (q : Fin b) : rowVec v (ix1 q) = v (ix2 (0 : Fin 1) q) := rfl

end ColumnLayout
-- ==== Proof.LibRealCoe.lean ====
/-
  Extended reals that are real numbers, at the ideal float operations: the coercion `ℝ → EReal` pushed through a finite
  sum, a maximum, a running maximum started at -∞ over a nonempty family, the exponential and the quotient; and the bit
  pattern of -∞. For value proofs that show every stage of a computation on finite inputs to be a coerced real and then
  argue over ℝ.
-/
import Idealize.ShloMosaic.PureOps.Ideal
import Idealize.ShloMosaic.PureOps.Ideal.Laws

noncomputable section

namespace RealCoe

open Idealize.ShloMosaic

/-- A finite sum of coerced reals is the coerced sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The bit pattern of -∞. -/
theorem ofBits_neg_inf : Ideal.ofBits .f32 0xFF800000#32 = (⊥ : EReal) := by
  simp [Ideal.ofBits, Ideal.ieee]

/-- The maximum of two reals. -/
theorem coe_max (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A running maximum started at -∞ over a nonempty family of reals is a real. -/
theorem fold_max_real {ι : Type*} (s : Finset ι) (hs : s.Nonempty) (g : ι → ℝ) :
    ∃ r : ℝ, s.fold max (⊥ : EReal) (fun i => ((g i : ℝ) : EReal)) = (r : EReal) := by
  classical
  induction s using Finset.induction_on with
  | empty => exact absurd hs (by simp)
  | insert a s ha ih =>
    rw [Finset.fold_insert ha]
    rcases s.eq_empty_or_nonempty with rfl | hne
    · exact ⟨g a, by simp⟩
    · obtain ⟨r, hr⟩ := ih hne
      exact ⟨max (g a) r, by rw [hr, coe_max]⟩

/-- The exponential of a real. -/
theorem exp_coe (r : ℝ) : Ideal.exp ((r : ℝ) : EReal) = ((Real.exp r : ℝ) : EReal) := rfl

/-- The exponential of -∞. -/
theorem exp_bot : Ideal.exp (⊥ : EReal) = 0 := rfl

/-- The quotient of two reals, the divisor not zero. -/
theorem div_coe_coe (x y : ℝ) (hy : y ≠ 0) : Ideal.div (x : EReal) (y : EReal) = ((x / y : ℝ) : EReal) := by
  rw [Ideal.div_coe hy, ← EReal.coe_mul, mul_one_div]

end RealCoe

end
-- ==== Proof.Update.lean ====
/-
  The body's arithmetic at the extended reals, one row of the 64 queries at a time.

  With the query block `q` and the memory block `v` (8000 rows) holding real numbers, the block's logits
  `L b j = ∑ k, q b k * v j k` are reals, and so is each row's maximum `Mb b` (a running maximum from -∞ over 8000 reals).
  The update then reads, for row `b` with `mp` the level held before and `m' = max mp (Mb b)`:
    level      ↦ m'
    normaliser ↦ l * exp (mp - m') + ∑ j, exp (L b j - m')
    sums       ↦ acc d * exp (mp - m') + ∑ j, exp (L b j - m') * v j d        (the second product; casts to bf16 are the identity)
  At a later point `mp` is a real and everything stays real; at the first point `mp = -∞`, `exp (-∞ - m') = 0` and the old
  sums are zero, so only the block's terms remain. The last point divides entry `(b, d)` of the sums by row `b`'s normaliser.
-/
import proofs.«172269_g9818295239233_cont_9to1_m_996_4_alg».proof.Proof.Gen.KernelIdeal.Skeleton
import proofs.«172269_g9818295239233_cont_9to1_m_996_4_alg».proof.Proof.Softmax
import proofs.«172269_g9818295239233_cont_9to1_m_996_4_alg».proof.Proof.LibColumn
import proofs.«172269_g9818295239233_cont_9to1_m_996_4_alg».proof.Proof.LibRealCoe
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.Update

open Cert.KernelIdeal Cert.KernelIdeal.Gen RealCoe

variable (x0 : Vec Ideal S64x64 .f32) (x1 : Vec Ideal S8000x64 .f32)
variable (qq : Fin 64 → Fin 64 → ℝ) (ww : Fin 8000 → Fin 64 → ℝ)

/-- The block's logits. -/
def blockLogit (b : Fin 64) (j : Fin 8000) : ℝ := ∑ k : Fin 64, qq b k * ww j k

/-- The first product, `q · vᵀ` of the two blocks, entry by entry. -/
theorem pay6_apply (hx0 : ∀ b k, x0 (ix2 b k) = ((qq b k : ℝ) : EReal)) (hx1 : ∀ j k, x1 (ix2 j k) = ((ww j k : ℝ) : EReal))
    (b : Fin 64) (j : Fin 8000) : k0_pay6 x0 x1 (ix2 b j) = ((blockLogit qq ww b j : ℝ) : EReal) := by
  unfold k0_pay6
  simp only [matmul]
  rw [Ideal.matmul_constant_zero_apply, ← Equiv.sum_comp (ValueIdx.contrEquiv1 dot_S64x64_S8000x64_S64x8000_1_1_0_0_n_n 64 rfl rfl).symm]
  unfold blockLogit
  rw [← coe_sum]
  refine Finset.sum_congr rfl fun k _ => ?_
  have hk := ValueIdx.contrEquiv1_symm_val dot_S64x64_S8000x64_S64x8000_1_1_0_0_n_n 64 rfl rfl k
  have el : dot_S64x64_S8000x64_S64x8000_1_1_0_0_n_n.lhsIdx (ix2 b j) ((ValueIdx.contrEquiv1 dot_S64x64_S8000x64_S64x8000_1_1_0_0_n_n 64 rfl rfl).symm k) = ix2 b k :=
    funext fun a => Fin.ext (by
      match a with
      | ⟨0, _⟩ =>
        show (dot_S64x64_S8000x64_S64x8000_1_1_0_0_n_n.lhsIdx _ _ 0).val = b.val
        unfold DotDims.lhsIdx
        rw [dif_neg (show ¬(0 : Fin S64x64.rank) ∈ dot_S64x64_S8000x64_S64x8000_1_1_0_0_n_n.lhsBatch by decide), dif_pos (show (0 : Fin S64x64.rank) ∈ dot_S64x64_S8000x64_S64x8000_1_1_0_0_n_n.lhsNonContracting by decide)]
        rfl
      | ⟨1, _⟩ => exact (dot_S64x64_S8000x64_S64x8000_1_1_0_0_n_n.lhsIdx_val_of_single rfl _ _).trans hk)
  have er : dot_S64x64_S8000x64_S64x8000_1_1_0_0_n_n.rhsIdx (ix2 b j) ((ValueIdx.contrEquiv1 dot_S64x64_S8000x64_S64x8000_1_1_0_0_n_n 64 rfl rfl).symm k) = ix2 j k :=
    funext fun a => Fin.ext (by
      match a with
      | ⟨0, _⟩ =>
        show (dot_S64x64_S8000x64_S64x8000_1_1_0_0_n_n.rhsIdx _ _ 0).val = j.val
        unfold DotDims.rhsIdx
        rw [dif_neg (show ¬(0 : Fin S8000x64.rank) ∈ dot_S64x64_S8000x64_S64x8000_1_1_0_0_n_n.rhsBatch by decide), dif_pos (show (0 : Fin S8000x64.rank) ∈ dot_S64x64_S8000x64_S64x8000_1_1_0_0_n_n.rhsNonContracting by decide)]
        rfl
      | ⟨1, _⟩ => exact (dot_S64x64_S8000x64_S64x8000_1_1_0_0_n_n.rhsIdx_val_of_single rfl _ _).trans hk)
  rw [el, er, hx0, hx1, EReal.coe_mul]

/-- Row `b`'s maximum over the block's logits is some real number. -/
theorem blockmax_real (hx0 : ∀ b k, x0 (ix2 b k) = ((qq b k : ℝ) : EReal)) (hx1 : ∀ j k, x1 (ix2 j k) = ((ww j k : ℝ) : EReal))
    (hφ : FKind.Formats .f32) (hacc : (0xFF800000#32 : BitVec FTy.f32.bits) = FKind.maximumf.neutral .f32 hφ)
    (b : Fin 64) : ∃ Mb : ℝ,
      multiReduction .maximumf [1] S64 (k0_pay6 x0 x1) 0xFF800000#32 reduces_S64x8000_S64 hφ hacc (ix1 b) = (Mb : EReal) := by
  obtain ⟨r, hr⟩ := fold_max_real (Finset.univ : Finset (Fin 8000)) ⟨0, Finset.mem_univ _⟩ (blockLogit qq ww b)
  refine ⟨r, ?_⟩
  refine (Ideal.multiReduction_maximumf_single (a := 1) (k0_pay6 x0 x1) 0xFF800000#32 reduces_S64x8000_S64 hφ hacc (ix1 b)).trans ?_
  rw [← hr]
  show Finset.fold max (Ideal.ofBits .f32 0xFF800000#32) _ _ = _
  rw [ofBits_neg_inf]
  refine congrArg (fun f => Finset.fold max (⊥ : EReal) f (Finset.univ : Finset (Fin 8000))) (funext fun j => ?_)
  show k0_pay6 x0 x1 (reduces_S64x8000_S64.lift (ix1 b) j) = _
  rw [← pay6_apply x0 x1 qq ww hx0 hx1 b j]
  exact congrArg (k0_pay6 x0 x1) (funext fun a => Fin.ext (by match a with | ⟨0, _⟩ => rfl | ⟨1, _⟩ => rfl))

/-- The second product's index pair: entry `(b, d)` sums over the block's rows `j` the weight `(b, j)` times the row's entry `(j, d)`. -/
theorem pay12_matmul_apply (p : FVec Ideal S64x8000 .f32) (b d : Fin 64) :
    matmul dot_S64x8000_S8000x64_S64x64_1_0_0_1_n_n none (truncf .bf16 p bitsLt_bf16_f32) (truncf .bf16 x1 bitsLt_bf16_f32)
        (constant S64x64 .f32 0x00000000#32) (ix2 b d)
      = ∑ j : Fin 8000, p (ix2 b j) * x1 (ix2 j d) := by
  simp only [matmul]
  rw [Ideal.matmul_constant_zero_apply, ← Equiv.sum_comp (ValueIdx.contrEquiv1 dot_S64x8000_S8000x64_S64x64_1_0_0_1_n_n 8000 rfl rfl).symm]
  refine Finset.sum_congr rfl fun k _ => ?_
  have hk := ValueIdx.contrEquiv1_symm_val dot_S64x8000_S8000x64_S64x64_1_0_0_1_n_n 8000 rfl rfl k
  have el : dot_S64x8000_S8000x64_S64x64_1_0_0_1_n_n.lhsIdx (ix2 b d) ((ValueIdx.contrEquiv1 dot_S64x8000_S8000x64_S64x64_1_0_0_1_n_n 8000 rfl rfl).symm k) = ix2 b k :=
    funext fun a => Fin.ext (by
      match a with
      | ⟨0, _⟩ =>
        show (dot_S64x8000_S8000x64_S64x64_1_0_0_1_n_n.lhsIdx _ _ 0).val = b.val
        unfold DotDims.lhsIdx
        rw [dif_neg (show ¬(0 : Fin S64x8000.rank) ∈ dot_S64x8000_S8000x64_S64x64_1_0_0_1_n_n.lhsBatch by decide), dif_pos (show (0 : Fin S64x8000.rank) ∈ dot_S64x8000_S8000x64_S64x64_1_0_0_1_n_n.lhsNonContracting by decide)]
        rfl
      | ⟨1, _⟩ => exact (dot_S64x8000_S8000x64_S64x64_1_0_0_1_n_n.lhsIdx_val_of_single rfl _ _).trans hk)
  have er : dot_S64x8000_S8000x64_S64x64_1_0_0_1_n_n.rhsIdx (ix2 b d) ((ValueIdx.contrEquiv1 dot_S64x8000_S8000x64_S64x64_1_0_0_1_n_n 8000 rfl rfl).symm k) = ix2 k d :=
    funext fun a => Fin.ext (by
      match a with
      | ⟨0, _⟩ => exact (dot_S64x8000_S8000x64_S64x64_1_0_0_1_n_n.rhsIdx_val_of_single rfl _ _).trans hk
      | ⟨1, _⟩ =>
        show (dot_S64x8000_S8000x64_S64x64_1_0_0_1_n_n.rhsIdx _ _ 1).val = d.val
        unfold DotDims.rhsIdx
        rw [dif_neg (show ¬(1 : Fin S8000x64.rank) ∈ dot_S64x8000_S8000x64_S64x64_1_0_0_1_n_n.rhsBatch by decide), dif_pos (show (1 : Fin S8000x64.rank) ∈ dot_S64x8000_S8000x64_S64x64_1_0_0_1_n_n.rhsNonContracting by decide)]
        rfl)
  rw [el, er]
  rfl

/-- A row sum of the block's weights. -/
theorem rowsum_apply (p : FVec Ideal S64x8000 .f32) (hφ : FKind.Formats .f32)
    (hacc : (0x00000000#32 : BitVec FTy.f32.bits) = FKind.add.neutral .f32 hφ) (b : Fin 64) :
    multiReduction .add [1] S64 p 0x00000000#32 reduces_S64x8000_S64 hφ hacc (ix1 b) = ∑ j : Fin 8000, p (ix2 b j) := by
  refine (Ideal.multiReduction_add_single (a := 1) p 0x00000000#32 reduces_S64x8000_S64 hφ hacc (ix1 b)).trans ?_
  refine Finset.sum_congr rfl fun j _ => ?_
  exact congrArg p (funext fun a => Fin.ext (by match a with | ⟨0, _⟩ => rfl | ⟨1, _⟩ => rfl))

/-- THE COMMON UPDATE, one row at a time. With `mp` the level the scratch held and `Mb` the block's row maximum (a real),
    the new level is `m' = max mp Mb`; the normaliser and the weighted sums are what the scratch held, rescaled by
    `exp (mp - m')`, plus the block's `exp (L - m')` terms. -/
theorem update_row (hx0 : ∀ b k, x0 (ix2 b k) = ((qq b k : ℝ) : EReal)) (hx1 : ∀ j k, x1 (ix2 j k) = ((ww j k : ℝ) : EReal))
    (b : Fin 64) : ∃ Mb : ℝ, ∀ (xs0 : Vec Ideal S64x64 .f32) (xs1 xs2 : Vec Ideal S64x1 .f32),
      k0_pay10 x0 x1 xs1 (ix2 b (0 : Fin 1)) = max (xs1 (ix2 b (0 : Fin 1))) (Mb : EReal)
      ∧ k0_pay11 x0 x1 xs1 xs2 (ix2 b (0 : Fin 1))
          = xs2 (ix2 b (0 : Fin 1)) * Ideal.exp (xs1 (ix2 b (0 : Fin 1)) - max (xs1 (ix2 b (0 : Fin 1))) (Mb : EReal))
            + ∑ j : Fin 8000, Ideal.exp (((blockLogit qq ww b j : ℝ) : EReal) - max (xs1 (ix2 b (0 : Fin 1))) (Mb : EReal))
      ∧ ∀ d : Fin 64, k0_pay1 (k0_pay12 x0 x1 xs1 xs0) (ix2 b d)
          = xs0 (ix2 b d) * Ideal.exp (xs1 (ix2 b (0 : Fin 1)) - max (xs1 (ix2 b (0 : Fin 1))) (Mb : EReal))
            + ∑ j : Fin 8000, Ideal.exp (((blockLogit qq ww b j : ℝ) : EReal) - max (xs1 (ix2 b (0 : Fin 1))) (Mb : EReal)) * ((ww j d : ℝ) : EReal) := by
  obtain ⟨Mb, hMb⟩ := blockmax_real x0 x1 qq ww hx0 hx1 (.inl rfl) rfl b
  refine ⟨Mb, fun xs0 xs1 xs2 => ?_⟩
  have h7 : k0_pay7 x0 x1 xs1 (ix2 b (0 : Fin 1)) = max (xs1 (ix2 b (0 : Fin 1))) (Mb : EReal) := by
    unfold k0_pay7
    exact congrArg (max (xs1 (ix2 b (0 : Fin 1)))) ((ColumnLayout.shapeCast_a_a1_apply _ shapeCasts_S64_S64x1 b 0).trans hMb)
  have h8 : k0_pay8 x0 x1 xs1 (ix2 b (0 : Fin 1)) = Ideal.exp (xs1 (ix2 b (0 : Fin 1)) - max (xs1 (ix2 b (0 : Fin 1))) (Mb : EReal)) := by
    unfold k0_pay8
    exact congrArg (fun z => Ideal.exp (xs1 (ix2 b (0 : Fin 1)) - z)) h7
  have h9 : ∀ j : Fin 8000, k0_pay9 x0 x1 xs1 (ix2 b j)
      = Ideal.exp (((blockLogit qq ww b j : ℝ) : EReal) - max (xs1 (ix2 b (0 : Fin 1))) (Mb : EReal)) := by
    intro j
    unfold k0_pay9
    show Ideal.exp (k0_pay6 x0 x1 (ix2 b j) - broadcastTo S64x8000 (k0_pay7 x0 x1 xs1) broadcasts_S64x1_S64x8000 (ix2 b j)) = _
    rw [pay6_apply x0 x1 qq ww hx0 hx1 b j]
    exact congrArg (fun z => Ideal.exp (((blockLogit qq ww b j : ℝ) : EReal) - z))
      ((ColumnLayout.broadcastTo_a1_ab_apply _ broadcasts_S64x1_S64x8000 b j).trans h7)
  refine ⟨?_, ?_, fun d => ?_⟩
  · unfold k0_pay10
    rw [shapeCast_self]
    exact h7
  · unfold k0_pay11
    rw [shapeCast_self]
    show xs2 (ix2 b (0 : Fin 1)) * k0_pay8 x0 x1 xs1 (ix2 b (0 : Fin 1))
        + shapeCast S64x1 (multiReduction .add [1] S64 (k0_pay9 x0 x1 xs1) 0x00000000#32 reduces_S64x8000_S64 (.inl rfl) rfl) shapeCasts_S64_S64x1 (ix2 b (0 : Fin 1)) = _
    rw [h8]
    refine congrArg (fun z : EReal => xs2 (ix2 b (0 : Fin 1)) * Ideal.exp (xs1 (ix2 b (0 : Fin 1)) - max (xs1 (ix2 b (0 : Fin 1))) (Mb : EReal)) + z) ?_
    refine (ColumnLayout.shapeCast_a_a1_apply _ shapeCasts_S64_S64x1 b 0).trans ?_
    refine (rowsum_apply (k0_pay9 x0 x1 xs1) (.inl rfl) rfl b).trans ?_
    exact Finset.sum_congr rfl fun j _ => h9 j
  · unfold k0_pay1
    rw [shapeCast_self]
    unfold k0_pay12
    show xs0 (ix2 b d) * broadcastTo S64x64 (k0_pay8 x0 x1 xs1) broadcasts_S64x1_S64x64 (ix2 b d)
        + matmul dot_S64x8000_S8000x64_S64x64_1_0_0_1_n_n none (truncf .bf16 (k0_pay9 x0 x1 xs1) bitsLt_bf16_f32) (truncf .bf16 x1 bitsLt_bf16_f32)
            (constant S64x64 .f32 0x00000000#32) (ix2 b d) = _
    rw [pay12_matmul_apply x1 (k0_pay9 x0 x1 xs1) b d]
    refine congrArg₂ (· + ·) (congrArg (xs0 (ix2 b d) * ·) ((ColumnLayout.broadcastTo_a1_ab_apply _ broadcasts_S64x1_S64x64 b d).trans h8)) ?_
    exact Finset.sum_congr rfl fun j _ => by rw [h9 j, hx1 j d]

/-- A LATER POINT's update of a row whose scratches hold reals: level `M`, normaliser `Sl`, weighted sums `Sa d`. The
    new level `M'` is a real, and the new sums are the old ones times `exp (M - M')` plus the block's terms at `M'`. -/
theorem update_row_real (hx0 : ∀ b k, x0 (ix2 b k) = ((qq b k : ℝ) : EReal)) (hx1 : ∀ j k, x1 (ix2 j k) = ((ww j k : ℝ) : EReal))
    (xs0 : Vec Ideal S64x64 .f32) (xs1 xs2 : Vec Ideal S64x1 .f32) (b : Fin 64) (M Sl : ℝ) (Sa : Fin 64 → ℝ)
    (hm : xs1 (ix2 b (0 : Fin 1)) = (M : EReal)) (hl : xs2 (ix2 b (0 : Fin 1)) = (Sl : EReal))
    (ha : ∀ d, xs0 (ix2 b d) = ((Sa d : ℝ) : EReal)) :
    ∃ M' : ℝ, k0_pay10 x0 x1 xs1 (ix2 b (0 : Fin 1)) = (M' : EReal)
      ∧ k0_pay11 x0 x1 xs1 xs2 (ix2 b (0 : Fin 1))
          = ((Sl * Real.exp (M - M') + ∑ j : Fin 8000, Real.exp (blockLogit qq ww b j - M') : ℝ) : EReal)
      ∧ ∀ d : Fin 64, k0_pay1 (k0_pay12 x0 x1 xs1 xs0) (ix2 b d)
          = ((Sa d * Real.exp (M - M') + ∑ j : Fin 8000, Real.exp (blockLogit qq ww b j - M') * ww j d : ℝ) : EReal) := by
  obtain ⟨Mb, h⟩ := update_row x0 x1 qq ww hx0 hx1 b
  obtain ⟨h10, h11, h12⟩ := h xs0 xs1 xs2
  rw [hm, coe_max] at h10 h11 h12
  refine ⟨max M Mb, h10, ?_, fun d => ?_⟩
  · rw [h11, hl]
    simp only [← EReal.coe_sub, exp_coe, ← EReal.coe_mul, coe_sum, ← EReal.coe_add]
  · rw [h12 d, ha d]
    simp only [← EReal.coe_sub, exp_coe, ← EReal.coe_mul, coe_sum, ← EReal.coe_add]

/-- What the reset stores: -∞ in the level, zero in the normaliser and in the weighted sums. -/
theorem pay4_apply (i : S64x1.Idx) : k0_pay4 (F := Ideal) i = (⊥ : EReal) := by
  unfold k0_pay4
  rw [shapeCast_self]
  exact ofBits_neg_inf

theorem pay5_apply (i : S64x1.Idx) : k0_pay5 (F := Ideal) i = (0 : EReal) := by
  unfold k0_pay5
  rw [shapeCast_self]
  exact Ideal.ofBits_zero_f32

theorem pay3_apply (i : S64x64.Idx) : k0_pay3 (F := Ideal) i = (0 : EReal) := by
  unfold k0_pay3
  rw [shapeCast_self]
  exact Ideal.ofBits_zero_f32

/-- THE FIRST POINT's update of a row: from the reset values the level becomes the block's row maximum `M'`, a real,
    and the sums are the block's terms at `M'` alone (the old sums are zero and `exp (-∞ - M') = 0`). -/
theorem first_row (hx0 : ∀ b k, x0 (ix2 b k) = ((qq b k : ℝ) : EReal)) (hx1 : ∀ j k, x1 (ix2 j k) = ((ww j k : ℝ) : EReal))
    (b : Fin 64) :
    ∃ M' : ℝ, k0_pay10 x0 x1 (k0_pay4 (F := Ideal)) (ix2 b (0 : Fin 1)) = (M' : EReal)
      ∧ k0_pay11 x0 x1 (k0_pay4 (F := Ideal)) (k0_pay5 (F := Ideal)) (ix2 b (0 : Fin 1))
          = ((∑ j : Fin 8000, Real.exp (blockLogit qq ww b j - M') : ℝ) : EReal)
      ∧ ∀ d : Fin 64, k0_pay1 (k0_pay12 x0 x1 (k0_pay4 (F := Ideal)) (k0_pay3 (F := Ideal))) (ix2 b d)
          = ((∑ j : Fin 8000, Real.exp (blockLogit qq ww b j - M') * ww j d : ℝ) : EReal) := by
  obtain ⟨Mb, h⟩ := update_row x0 x1 qq ww hx0 hx1 b
  obtain ⟨h10, h11, h12⟩ := h (k0_pay3 (F := Ideal)) (k0_pay4 (F := Ideal)) (k0_pay5 (F := Ideal))
  have hmax : max (⊥ : EReal) (Mb : EReal) = (Mb : EReal) := max_eq_right bot_le
  have hsub : (⊥ : EReal) - (Mb : EReal) = ⊥ := by rw [sub_eq_add_neg, EReal.bot_add]
  rw [pay4_apply, hmax] at h10
  rw [pay4_apply, hmax, hsub, exp_bot] at h11 h12
  refine ⟨Mb, h10, ?_, fun d => ?_⟩
  · rw [h11, pay5_apply, mul_zero, zero_add]
    simp only [← EReal.coe_sub, exp_coe, coe_sum]
  · rw [h12 d, pay3_apply, mul_zero, zero_add]
    simp only [← EReal.coe_sub, exp_coe, ← EReal.coe_mul, coe_sum]

/-- THE LAST POINT's quotient, entry by entry: the weighted sum over the row's normaliser. -/
theorem pay2_apply (acc : Vec Ideal S64x64 .f32) (l : Vec Ideal S64x1 .f32) (b d : Fin 64) :
    k0_pay2 acc l (ix2 b d) = Ideal.div (acc (ix2 b d)) (l (ix2 b (0 : Fin 1))) := by
  unfold k0_pay2
  exact congrArg (Ideal.div (acc (ix2 b d))) (ColumnLayout.broadcastTo_a1_ab_apply _ broadcasts_S64x1_S64x64 b d)

end Cert.KernelIdeal.Update

end
-- ==== Proof.Stream.lean ====
/-
  The scratches after every grid point, and the output block after the last.

  Point `n` of the 125 reads block `n` of the memory (rows 8000 n … 8000 n + 7999) and the whole query array. What the
  three scratches hold after point `n` is, row `b` by row: a real level `M`, the normaliser `∑ exp (L J - M)` over the rows
  `J` of blocks 0 … n, and for each column `d` the weighted sum `∑ exp (L J - M) * w J d` over the same rows — by
  induction on the point, the first point from the reset values, every later point from what the point before left
  (the rescaling law of the streamed sums). After point 124 the sums run over the whole memory, and the quotient the
  last point stores is the softmax-weighted average of the rows; that block is the whole result array.
-/
import proofs.«172269_g9818295239233_cont_9to1_m_996_4_alg».proof.Proof.Gen.KernelIdeal.Value
import proofs.«172269_g9818295239233_cont_9to1_m_996_4_alg».proof.Proof.Pieces
import proofs.«172269_g9818295239233_cont_9to1_m_996_4_alg».proof.Proof.Update
import proofs.«172269_g9818295239233_cont_9to1_m_996_4_alg».proof.Proof.Softmax
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Stream

open Cert.KernelIdeal Cert.KernelIdeal.Gen Cert.Softmax

/-! ## Each point's scratches as the update of the point before's (any float instance) -/

section Points

variable {F : FTy → Type} [FloatOps F]
variable (m : (ℓ : Loc nD τ sig) → Buf (Elt F) ℓ) (c : Dev nD)

/-- The first point: the update of the reset values. -/
theorem point_first (t : Fin cfg0.N) (h0 : t.val % 125 = 0) (h1 : ¬t.val % 125 = 124) :
    (outsAt0 m c t.val t.isLt).2.1 = k0_pay1 (k0_pay12 (iblk m c 0 t) (iblk m c 1 t) k0_pay4 k0_pay3)
    ∧ (outsAt0 m c t.val t.isLt).2.2.1 = k0_pay10 (iblk m c 0 t) (iblk m c 1 t) k0_pay4
    ∧ (outsAt0 m c t.val t.isLt).2.2.2 = k0_pay11 (iblk m c 0 t) (iblk m c 1 t) k0_pay4 k0_pay5 := by
  rw [outsAt0_A m c t h0 h1]
  exact ⟨Pieces.sout0_A_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    Pieces.sout0_A_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    Pieces.sout0_A_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)⟩

/-- A middle point: the update of what the point before left. -/
theorem point_middle (t : Fin cfg0.N) (h0 : ¬t.val % 125 = 0) (h1 : ¬t.val % 125 = 124) :
    (outsAt0 m c t.val t.isLt).2.1 = k0_pay1 (k0_pay12 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.1)
    ∧ (outsAt0 m c t.val t.isLt).2.2.1 = k0_pay10 (iblk m c 0 t) (iblk m c 1 t) (outsAt0 m c (t.val - 1) (Nat.lt_of_le_of_lt (Nat.sub_le _ _) t.isLt)).2.2.1
    ∧ (outsAt0 m c t.val t.isLt).2.2.2 = k0_pay11 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0 h1]
  exact ⟨Pieces.sout0_B_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sout0_B_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.sout0_B_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- The last point: the same update, and the quotient of the updated sums by the updated normaliser in the output block. -/
theorem point_last (t : Fin cfg0.N) (h0 : ¬t.val % 125 = 0) (h1 : t.val % 125 = 124) :
    (outsAt0 m c t.val t.isLt).2.1 = k0_pay1 (k0_pay12 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.1)
    ∧ (outsAt0 m c t.val t.isLt).2.2.1 = k0_pay10 (iblk m c 0 t) (iblk m c 1 t) (outsAt0 m c (t.val - 1) (Nat.lt_of_le_of_lt (Nat.sub_le _ _) t.isLt)).2.2.1
    ∧ (outsAt0 m c t.val t.isLt).2.2.2 = k0_pay11 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
    ∧ (outsAt0 m c t.val t.isLt).1 = k0_pay2 (outsAt0 m c t.val t.isLt).2.1 (outsAt0 m c t.val t.isLt).2.2.2 := by
  rw [outsAt0_C m c t h0 h1]
  have e0 := Pieces.sout0_C_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  have e2 := Pieces.sout0_C_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  refine ⟨e0, Pieces.sout0_C_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, e2, ?_⟩
  dsimp only
  rw [e0, e2]
  exact Pieces.out0_C_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Points

/-! ## At the extended reals -/

section AtIdeal

variable (m : (ℓ : Loc nD τ sig) → Buf (Elt Ideal) ℓ) (c : Dev nD)

/-- The query array and the memory, as the region finds them. -/
abbrev queries : S64x64.Idx → EReal := m ((c : Thread nD τ).loc main_arg0)
abbrev memory : S1000000x64.Idx → EReal := m ((c : Thread nD τ).loc main_arg1)

/-- The printed index maps over the grid: the query block and the output block never move, the memory block is block `t`. -/
theorem index_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The query block at any point is the query array. -/
theorem iblk0_apply (t : Fin cfg0.N) (b k : Fin 64) :
    (iblk m c 0 t : Vec Ideal S64x64 .f32) (ix2 b k) = queries m c (ix2 b k) := by
  obtain ⟨e0, e1, -⟩ := index_facts t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 64 + 1 * b.val = b.val; omega
  | ⟨1, _⟩ => show win0_0.index t (1 : Fin 2) * 64 + 1 * k.val = k.val; omega

/-- The memory block at point `t` is rows `8000 t …` of the memory. -/
theorem iblk1_apply (t : Fin cfg0.N) (j : Fin 8000) (k : Fin 64) :
    (iblk m c 1 t : Vec Ideal S8000x64 .f32) (ix2 j k) = memory m c (ix2 (row t.val j) k) := by
  obtain ⟨-, -, e2, e3, -⟩ := index_facts t
  have hN : t.val < 125 := lt_of_lt_of_eq t.isLt (show cfg0.N = 125 from N_0)
  have hr := row_val hN j
  unfold iblk
  rw [View.read_apply]
  show V m c main_arg1 _ = m ((c : Thread nD τ).loc main_arg1) _
  unfold V
  congr 1
  funext a
  apply Fin.ext
  match a with
  | ⟨0, _⟩ => show win0_1.index t (0 : Fin 2) * 8000 + 1 * j.val = (row t.val j).val; omega
  | ⟨1, _⟩ => show win0_1.index t (1 : Fin 2) * 64 + 1 * k.val = k.val; omega

variable (hq : Finite (queries m c)) (hw : Finite (memory m c))

include hq in
theorem block0_real (t : Fin cfg0.N) (b k : Fin 64) :
    (iblk m c 0 t : Vec Ideal S64x64 .f32) (ix2 b k) = ((realQ (queries m c) b k : ℝ) : EReal) :=
  (iblk0_apply m c t b k).trans (hq.coe _)

include hw in
theorem block1_real (t : Fin cfg0.N) (j : Fin 8000) (k : Fin 64) :
    (iblk m c 1 t : Vec Ideal S8000x64 .f32) (ix2 j k) = ((realW (memory m c) (row t.val j) k : ℝ) : EReal) :=
  (iblk1_apply m c t j k).trans (hw.coe _)

/-- What the scratches hold after point `n`, row by row: a real level, and the streamed sums over blocks 0 … n at that level. -/
def Holds (n : ℕ) (hn : n < cfg0.N) : Prop :=
  ∀ b : Fin 64, ∃ M : ℝ,
    (outsAt0 m c n hn).2.2.1 (ix2 b (0 : Fin 1)) = ((M : ℝ) : EReal)
    ∧ (outsAt0 m c n hn).2.2.2 (ix2 b (0 : Fin 1)) = ((partL (realQ (queries m c)) (realW (memory m c)) b M (n + 1) : ℝ) : EReal)
    ∧ ∀ d : Fin 64, (outsAt0 m c n hn).2.1 (ix2 b d) = ((partA (realQ (queries m c)) (realW (memory m c)) b d M (n + 1) : ℝ) : EReal)

include hq hw in
theorem holds : ∀ (n : ℕ) (hn : n < cfg0.N), Holds m c n hn
  | 0, hn => by
    intro b
    obtain ⟨e0, e1, e2⟩ := point_first m c ⟨0, hn⟩ (Nat.zero_mod _) (by show ¬0 % 125 = 124; decide)
    obtain ⟨M', h10, h11, h12⟩ := Update.first_row (iblk m c 0 ⟨0, hn⟩) (iblk m c 1 ⟨0, hn⟩) (realQ (queries m c))
      (fun j k => realW (memory m c) (row 0 j) k) (block0_real m c hq ⟨0, hn⟩) (block1_real m c hw ⟨0, hn⟩) b
    refine ⟨M', ?_, ?_, fun d => ?_⟩
    · exact (congrFun e1 _).trans h10
    · refine (congrFun e2 _).trans (h11.trans ?_)
      rw [← partL_one]; rfl
    · refine (congrFun e0 _).trans ((h12 d).trans ?_)
      rw [← partA_one]; rfl
  | n + 1, hn => by
    intro b
    have hN : n + 1 < 125 := lt_of_lt_of_eq hn (show cfg0.N = 125 from N_0)
    obtain ⟨M, hm, hl, ha⟩ := holds n (Nat.lt_of_succ_lt hn) b
    have h0 : ¬(⟨n + 1, hn⟩ : Fin cfg0.N).val % 125 = 0 := by dsimp only; omega
    have pt : (outsAt0 m c (n + 1) hn).2.1 = k0_pay1 (k0_pay12 (iblk m c 0 ⟨n + 1, hn⟩) (iblk m c 1 ⟨n + 1, hn⟩) (outsAt0 m c n (Nat.lt_of_succ_lt hn)).2.2.1 (outsAt0 m c n (Nat.lt_of_succ_lt hn)).2.1)
        ∧ (outsAt0 m c (n + 1) hn).2.2.1 = k0_pay10 (iblk m c 0 ⟨n + 1, hn⟩) (iblk m c 1 ⟨n + 1, hn⟩) (outsAt0 m c n (Nat.lt_of_succ_lt hn)).2.2.1
        ∧ (outsAt0 m c (n + 1) hn).2.2.2 = k0_pay11 (iblk m c 0 ⟨n + 1, hn⟩) (iblk m c 1 ⟨n + 1, hn⟩) (outsAt0 m c n (Nat.lt_of_succ_lt hn)).2.2.1 (outsAt0 m c n (Nat.lt_of_succ_lt hn)).2.2.2 := by
      by_cases h1 : (⟨n + 1, hn⟩ : Fin cfg0.N).val % 125 = 124
      · obtain ⟨a0, a1, a2, -⟩ := point_last m c ⟨n + 1, hn⟩ h0 h1
        exact ⟨a0, a1, a2⟩
      · exact point_middle m c ⟨n + 1, hn⟩ h0 h1
    obtain ⟨e0, e1, e2⟩ := pt
    obtain ⟨M', h10, h11, h12⟩ := Update.update_row_real (iblk m c 0 ⟨n + 1, hn⟩) (iblk m c 1 ⟨n + 1, hn⟩) (realQ (queries m c))
      (fun j k => realW (memory m c) (row (n + 1) j) k) (block0_real m c hq ⟨n + 1, hn⟩) (block1_real m c hw ⟨n + 1, hn⟩)
      (outsAt0 m c n (Nat.lt_of_succ_lt hn)).2.1 (outsAt0 m c n (Nat.lt_of_succ_lt hn)).2.2.1 (outsAt0 m c n (Nat.lt_of_succ_lt hn)).2.2.2
      b M (partL (realQ (queries m c)) (realW (memory m c)) b M (n + 1)) (fun d => partA (realQ (queries m c)) (realW (memory m c)) b d M (n + 1)) hm hl ha
    refine ⟨M', ?_, ?_, fun d => ?_⟩
    · exact (congrFun e1 _).trans h10
    · refine (congrFun e2 _).trans (h11.trans ?_)
      rw [← partL_succ (realQ (queries m c)) (realW (memory m c)) b M M' (n + 1)]; rfl
    · refine (congrFun e0 _).trans ((h12 d).trans ?_)
      rw [← partA_succ (realQ (queries m c)) (realW (memory m c)) b d M M' (n + 1)]; rfl

include hq hw in
/-- After the last point the output block holds the softmax-weighted averages. -/
theorem last_block (t : Fin cfg0.N) (h1 : t.val % 125 = 124) :
    (outsAt0 m c t.val t.isLt).1 = result (queries m c) (memory m c) := by
  have hN : t.val < 125 := lt_of_lt_of_eq t.isLt (show cfg0.N = 125 from N_0)
  have h0 : ¬t.val % 125 = 0 := by omega
  have e125 : t.val + 1 = 125 := by omega
  obtain ⟨-, -, -, e⟩ := point_last m c t h0 h1
  refine e.trans ?_
  funext i
  obtain ⟨b, d, rfl⟩ : ∃ (b : Fin 64) (d : Fin 64), i = ix2 b d := ⟨i 0, i 1, eq_ix2 i⟩
  obtain ⟨M, -, hl, ha⟩ := holds m c hq hw t.val t.isLt b
  rw [e125] at hl ha
  refine (Update.pay2_apply _ _ b d).trans ?_
  rw [hl, ha d, RealCoe.div_coe_coe _ _ (ne_of_gt (partL_pos (realQ (queries m c)) (realW (memory m c)) b M)),
    stream_eq_attend, result_ix2]

include hq hw in
/-- The one write-back, at the last point, writes that block; it sits at offset zero and is the whole array. -/
theorem flushed_eq (t : Fin cfg0.N) (hf : (cfg0.win 2).flush t = true) :
    (dats m 0 c).flushed 2 t = ((cfg0.win 2).blk t).view.read (Elt Ideal) (result (queries m c) (memory m c)) := by
  have h124 : t.val % 125 = 124 := (flush0_2 t).mp hf
  obtain ⟨-, -, -, -, e4, e5⟩ := index_facts t
  rw [Value.flushed2, last_block m c hq hw t h124]
  funext j
  show result (queries m c) (memory m c) j = result (queries m c) (memory m c) (((cfg0.win 2).blk t).view.emb j)
  refine congrArg (result (queries m c) (memory m c)) (funext fun a => Fin.ext ?_)
  match a with
  | ⟨0, _⟩ => show (j 0).val = win0_2.index t (0 : Fin 2) * 64 + 1 * (j 0).val; omega
  | ⟨1, _⟩ => show (j 1).val = win0_2.index t (1 : Fin 2) * 64 + 1 * (j 1).val; omega

/-- An index of the array is in point `t`'s output block iff each coordinate is in the block's range on its axis. -/
theorem mem_block (t : Fin cfg0.N) (i : S64x64.Idx) :
    i ∈ ((cfg0.win 2).blk t).view.set ↔ ∀ a : Fin 2, win0_2.index t a * S64x64.size a ≤ (i a).val ∧ (i a).val < win0_2.index t a * S64x64.size a + S64x64.size a := by
  show i ∈ ((View.whole main_v0).slice (win0_2.rect t)).set ↔ _
  rw [View.set_slice_whole, Rect.mem_set_unit]
  exact Iff.rfl

include hq hw in
/-- THE RESULT ARRAY after the run. -/
theorem final : (dats m 0 c).arrAt 2 cfg0.N = result (queries m c) (memory m c) := by
  have hlast : 124 < cfg0.N := by rw [show cfg0.N = 125 from N_0]; decide
  refine (dats m 0 c).arrAt_eq_of_cover 2 (result (queries m c) (memory m c)) (flushed_eq m c hq hw) fun i => ?_
  obtain ⟨-, -, -, -, e4, e5⟩ := index_facts ⟨124, hlast⟩
  refine ⟨⟨124, hlast⟩, (flush0_2 ⟨124, hlast⟩).mpr (by show 124 % 125 = 124; decide), ?_⟩
  rw [mem_block]
  intro a
  have h0 : (i 0).val < 64 := (i 0).isLt
  have h1 : (i 1).val < 64 := (i 1).isLt
  match a with
  | ⟨0, _⟩ => show win0_2.index ⟨124, hlast⟩ (0 : Fin 2) * 64 ≤ (i 0).val ∧ (i 0).val < win0_2.index ⟨124, hlast⟩ (0 : Fin 2) * 64 + 64; omega
  | ⟨1, _⟩ => show win0_2.index ⟨124, hlast⟩ (1 : Fin 2) * 64 ≤ (i 1).val ∧ (i 1).val < win0_2.index ⟨124, hlast⟩ (1 : Fin 2) * 64 + 64; omega

end AtIdeal

end Cert.KernelIdeal.Stream

end
-- ==== Proof.lean ====
/-
  A memory of 1000000 rows of 64 numbers is queried by 64 query vectors: for each query the rows are averaged with
  softmax weights of the query's dot products with the rows. The kernel streams the memory once, 8000 rows at a grid
  point, keeping a running level, a running normaliser and running weighted sums that it rescales whenever the level
  moves, and divides at the last point; the reference computes all logits, subtracts each row's maximum, exponentiates,
  normalises and multiplies by the memory.

  Over the extended reals, on inputs whose entries are all real (the precondition says exactly this), both are the same
  function of the two arrays (Proof/Softmax.lean `result`): entry `(b, d)` is
  `(∑ J, exp (L b J) * w J d) / (∑ J, exp (L b J))` with `L b J = ∑ k, q b k * w J k`. The level either side subtracts
  inside the exponentials cancels between numerator and denominator, so nothing about the levels is used beyond their being
  real numbers; the kernel's sums over blocks are the reference's sums over rows, re-associated.

  The kernel side: Proof/Pieces.lean (what a point stores, as the body's arithmetic of what it loads), Proof/Update.lean
  (that arithmetic one row at a time at the extended reals), Proof/Stream.lean (the scratches after every point, by
  induction; the result array). The reference side: Proof/RefValue.lean. The precondition: Proof/Finiteness.lean.
  The three frames are the generated runs; the idealization rewrote nothing.
-/
import proofs.«172269_g9818295239233_cont_9to1_m_996_4_alg».proof.Defs
import proofs.«172269_g9818295239233_cont_9to1_m_996_4_alg».proof.Proof.Gen.Kernel
import proofs.«172269_g9818295239233_cont_9to1_m_996_4_alg».proof.Proof.Gen.Kernel.Skeleton
import proofs.«172269_g9818295239233_cont_9to1_m_996_4_alg».proof.Proof.Gen.Kernel.Launch
import proofs.«172269_g9818295239233_cont_9to1_m_996_4_alg».proof.Proof.Gen.Kernel.Points
import proofs.«172269_g9818295239233_cont_9to1_m_996_4_alg».proof.Proof.Gen.Kernel.Frame
import proofs.«172269_g9818295239233_cont_9to1_m_996_4_alg».proof.Proof.Gen.KernelIdeal
import proofs.«172269_g9818295239233_cont_9to1_m_996_4_alg».proof.Proof.Gen.KernelIdeal.Skeleton
import proofs.«172269_g9818295239233_cont_9to1_m_996_4_alg».proof.Proof.Gen.KernelIdeal.Launch
import proofs.«172269_g9818295239233_cont_9to1_m_996_4_alg».proof.Proof.Gen.KernelIdeal.Points
import proofs.«172269_g9818295239233_cont_9to1_m_996_4_alg».proof.Proof.Gen.KernelIdeal.Frame
import proofs.«172269_g9818295239233_cont_9to1_m_996_4_alg».proof.Proof.Gen.ReferenceIdeal
import proofs.«172269_g9818295239233_cont_9to1_m_996_4_alg».proof.Proof.Gen.Pre_finite_inputs
import proofs.«172269_g9818295239233_cont_9to1_m_996_4_alg».proof.Proof.Gen.KernelIdeal.Value
import proofs.«172269_g9818295239233_cont_9to1_m_996_4_alg».proof.Proof.Gen.ReferenceIdeal.Run
import proofs.«172269_g9818295239233_cont_9to1_m_996_4_alg».proof.Proof.Gen.ReferenceIdeal.Read
import proofs.«172269_g9818295239233_cont_9to1_m_996_4_alg».proof.Proof.Softmax
import proofs.«172269_g9818295239233_cont_9to1_m_996_4_alg».proof.Proof.Finiteness
import proofs.«172269_g9818295239233_cont_9to1_m_996_4_alg».proof.Proof.RefValue
import proofs.«172269_g9818295239233_cont_9to1_m_996_4_alg».proof.Proof.Stream
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the softmax-weighted averages of the memory's rows in their result array. -/
theorem algebraic : Cert.algebraic_KernelIdeal_ReferenceIdeal := by
  intro m ρ m' ρ' hpre hagree
  refine ⟨fun c => Cert.Softmax.result (Cert.KernelIdeal.Stream.queries m c) (Cert.KernelIdeal.Stream.memory m c), ?_, ?_⟩
  · refine (θ_run Cert.KernelIdeal.defs _ _).mono (fun r h c => ?_) (Cert.KernelIdeal.Value.run_blocks m ρ)
    obtain ⟨hq, hw⟩ := Cert.FiniteOfPre.finite_of_pre _ _ (hpre c)
    exact ⟨(h c).1.trans (Cert.KernelIdeal.Stream.final m c hq hw), (h c).2⟩
  · refine (θ_run Cert.ReferenceIdeal.defs _ _).mono (fun r h c => ?_) (Cert.ReferenceIdeal.Value.run (F := Ideal) m' ρ')
    obtain ⟨hq, hw⟩ := Cert.FiniteOfPre.finite_of_pre _ _ (hpre c)
    refine ⟨(h c).1.trans ?_, (h c).2⟩
    rw [Cert.ReferenceIdeal.Read.val_main_v15_eq, (hagree c).1, (hagree c).2]
    exact Cert.RefValue.ref_eq _ _ hq hw

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
